-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "inv_tau_s" .f32 0x41200000#32 ((134217728 / 13421773 : ℝ) : EReal)
  ∧ IdealRules.named_const.Statement Cert.KernelIdeal.κ "inv_tau_t" .f32 0x41C80000#32 ((134217728 / 5368709 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x256x256 : Shape := ⟨4, ![8, 128, 256, 256]⟩
abbrev S128 : Shape := ⟨1, ![128]⟩
abbrev S8x256x256 : Shape := ⟨3, ![8, 256, 256]⟩
abbrev S8x1x256x256 : Shape := ⟨4, ![8, 1, 256, 256]⟩
abbrev S_ : Shape := ⟨0, ![]⟩

class Facts : Prop where
  bcast_S_S8x128x256x256 : S_.BroadcastsInDim S8x128x256x256 (![] : Fin 0 → Fin S8x128x256x256.rank)
  reducesTo_S8x128x256x256_S_d0_1_2_3 : S8x128x256x256.ReducesTo [0, 1, 2, 3] S_
  h_S_ : 0 < S_.numel
  bcast_S_S128 : S_.BroadcastsInDim S128 (![] : Fin 0 → Fin S128.rank)
  reducesTo_S128_S_d0 : S128.ReducesTo [0] S_
  bcast_S_S8x1x256x256 : S_.BroadcastsInDim S8x1x256x256 (![] : Fin 0 → Fin S8x1x256x256.rank)
  reducesTo_S8x1x256x256_S_d0_1_2_3 : S8x1x256x256.ReducesTo [0, 1, 2, 3] S_

variable [Facts]

def fn_part1 {F : FTy → Type} [FloatOps F] (main_v13 : IVec S_ 1) (main_v16 : IVec S8x1x256x256 1) : IVec S_ 1 :=
  let main_c_5 : IVec S_ 1 := constantI S_ 1 1#1
  let main_v17 : IVec S_ 1 := (fun x v => Host.reduce IntOp.andi x v reducesTo_S8x1x256x256_S_d0_1_2_3 h_S_) main_v16 main_c_5
  let main_v18 : IVec S_ 1 := andi main_v13 main_v17
  main_v18

def fn {F : FTy → Type} [FloatOps F] (main_arg0 : FVec F S8x128x256x256 .f32) (main_arg1 : FVec F S8x128x256x256 .f32) (main_arg2 : FVec F S128 .f32) (main_arg3 : IVec S8x256x256 1) (main_arg4 : FVec F S8x1x256x256 .f32) : IVec S_ 1 :=
  let main_v0 : FVec F S8x128x256x256 .f32 := Host.absf main_arg0
  let main_cst : FVec F S_ .f32 := constant S_ .f32 0x7F800000#32
  let main_v1 : FVec F S8x128x256x256 .f32 := broadcastInDim S8x128x256x256 ![] bcast_S_S8x128x256x256 main_cst
  let main_v2 : IVec S8x128x256x256 1 := cmpf .olt main_v0 main_v1
  let main_c : IVec S_ 1 := constantI S_ 1 1#1
  let main_v3 : IVec S_ 1 := (fun x v => Host.reduce IntOp.andi x v reducesTo_S8x128x256x256_S_d0_1_2_3 h_S_) main_v2 main_c
  let main_v4 : FVec F S8x128x256x256 .f32 := Host.absf main_arg1
  let main_cst_0 : FVec F S_ .f32 := constant S_ .f32 0x7F800000#32
  let main_v5 : FVec F S8x128x256x256 .f32 := broadcastInDim S8x128x256x256 ![] bcast_S_S8x128x256x256 main_cst_0
  let main_v6 : IVec S8x128x256x256 1 := cmpf .olt main_v4 main_v5
  let main_c_1 : IVec S_ 1 := constantI S_ 1 1#1
  let main_v7 : IVec S_ 1 := (fun x v => Host.reduce IntOp.andi x v reducesTo_S8x128x256x256_S_d0_1_2_3 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S8x1x256x256 .f32 := Host.absf main_arg4
  let main_cst_4 : FVec F S_ .f32 := constant S_ .f32 0x7F800000#32
  let main_v15 : FVec F S8x1x256x256 .f32 := broadcastInDim S8x1x256x256 ![] bcast_S_S8x1x256x256 main_cst_4
  let main_v16 : IVec S8x1x256x256 1 := cmpf .olt main_v14 main_v15
  fn_part1 (F := F) main_v13 main_v16
-- ==== Kernel.lean ====
abbrev S8x128x256x256 : Shape := ⟨4, ![8, 128, 256, 256]⟩
abbrev S128 : Shape := ⟨1, ![128]⟩
abbrev S8x256x256 : Shape := ⟨3, ![8, 256, 256]⟩
abbrev S8x1x256x256 : Shape := ⟨4, ![8, 1, 256, 256]⟩
abbrev S128x1x1 : Shape := ⟨3, ![128, 1, 1]⟩
abbrev S1x128x16x256 : Shape := ⟨4, ![1, 128, 16, 256]⟩
abbrev S1x16x256 : Shape := ⟨3, ![1, 16, 256]⟩
abbrev S128x16x256 : Shape := ⟨3, ![128, 16, 256]⟩
abbrev S16x256 : Shape := ⟨2, ![16, 256]⟩
abbrev S_ : Shape := ⟨0, ![]⟩
abbrev S8 : Shape := ⟨1, ![8]⟩

abbrev nBuf : Space → Nat
  | .hbm => 36
  | .vmem => 13
  | .smem => 0
  | _ => 0

abbrev bufTy : (tb : Table) → Fin (tcTables nBuf tb) → BufTy
  | .hbm, ⟨0, _⟩ => ⟨S8x128x256x256, .f32⟩
  | .hbm, ⟨1, _⟩ => ⟨S8x128x256x256, .f32⟩
  | .hbm, ⟨2, _⟩ => ⟨S128, .f32⟩
  | .hbm, ⟨3, _⟩ => ⟨S8x256x256, .i1⟩
  | .hbm, ⟨4, _⟩ => ⟨S8x1x256x256, .f32⟩
  | .hbm, ⟨5, _⟩ => ⟨S128x1x1, .f32⟩
  | .hbm, ⟨6, _⟩ => ⟨S8x256x256, .f32⟩
  | .hbm, ⟨7, _⟩ => ⟨S8x256x256, .f32⟩
  | .hbm, ⟨8, _⟩ => ⟨S8x256x256, .f32⟩
  | .hbm, ⟨9, _⟩ => ⟨S8x256x256, .f32⟩
  | .hbm, ⟨10, _⟩ => ⟨S_, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S8, .f32⟩
  | .hbm, ⟨18, _⟩ => ⟨S_, .f32⟩
  | .hbm, ⟨19, _⟩ => ⟨S8, .f32⟩
  | .hbm, ⟨20, _⟩ => ⟨S8, .i1⟩
  | .hbm, ⟨21, _⟩ => ⟨S8, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S8, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .i1⟩
  | .hbm, ⟨34, _⟩ => ⟨S_, .f32⟩
  | .hbm, ⟨35, _⟩ => ⟨S_, .f32⟩
  | .local _ .vmem, ⟨0, _⟩ => ⟨S128x1x1, .f32⟩
  | .local _ .vmem, ⟨1, _⟩ => ⟨S1x128x16x256, .f32⟩
  | .local _ .vmem, ⟨2, _⟩ => ⟨S1x128x16x256, .f32⟩
  | .local _ .vmem, ⟨3, _⟩ => ⟨S1x128x16x256, .f32⟩
  | .local _ .vmem, ⟨4, _⟩ => ⟨S1x128x16x256, .f32⟩
  | .local _ .vmem, ⟨5, _⟩ => ⟨S1x16x256, .f32⟩
  | .local _ .vmem, ⟨6, _⟩ => ⟨S1x16x256, .f32⟩
  | .local _ .vmem, ⟨7, _⟩ => ⟨S1x16x256, .f32⟩
  | .local _ .vmem, ⟨8, _⟩ => ⟨S1x16x256, .f32⟩
  | .local _ .vmem, ⟨9, _⟩ => ⟨S1x16x256, .f32⟩
  | .local _ .vmem, ⟨10, _⟩ => ⟨S1x16x256, .f32⟩
  | .local _ .vmem, ⟨11, _⟩ => ⟨S1x16x256, .f32⟩
  | .local _ .vmem, ⟨12, _⟩ => ⟨S1x16x256, .f32⟩
  | _, _ => ⟨S8x128x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_cst_4 : Ref sig .tc := ⟨.hbm, 24, rfl⟩
abbrev main_v13 : Ref sig .tc := ⟨.hbm, 25, rfl⟩
abbrev main_v14 : Ref sig .tc := ⟨.hbm, 26, rfl⟩
abbrev main_cst_5 : Ref sig .tc := ⟨.hbm, 27, rfl⟩
abbrev main_v15 : Ref sig .tc := ⟨.hbm, 28, rfl⟩
abbrev main_v16 : Ref sig .tc := ⟨.hbm, 29, rfl⟩
abbrev main_cst_6 : Ref sig .tc := ⟨.hbm, 30, rfl⟩
abbrev main_v17 : Ref sig .tc := ⟨.hbm, 31, rfl⟩
abbrev main_cst_7 : Ref sig .tc := ⟨.hbm, 32, rfl⟩
abbrev main_v18 : Ref sig .tc := ⟨.hbm, 33, rfl⟩
abbrev main_cst_8 : Ref sig .tc := ⟨.hbm, 34, rfl⟩
abbrev main_v19 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S128x1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x128x16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x16x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S128_S128x1x1 : S128.ShapeCasts S128x1x1
  shapeCasts_S8x1x256x256_S8x256x256 : S8x1x256x256.ShapeCasts S8x256x256
  inb_S128x1x1_S128x1x1_0_0_0 : ∀ a, (![0, 0, 0] : Fin 3 → Nat) a + S128x1x1.size a ≤ S128x1x1.size a
  h_S128x1x1 : 0 < S128x1x1.numel
  shapeCasts_S128x1x1_S128x1x1 : S128x1x1.ShapeCasts S128x1x1
  inb_S1x128x16x256_S1x128x16x256_0_0_0_0 : ∀ a, (![0, 0, 0, 0] : Fin 4 → Nat) a + S1x128x16x256.size a ≤ S1x128x16x256.size a
  h_S1x128x16x256 : 0 < S1x128x16x256.numel
  shapeCasts_S1x128x16x256_S128x16x256 : S1x128x16x256.ShapeCasts S128x16x256
  broadcasts_S128x1x1_S128x16x256 : S128x1x1.Broadcasts S128x16x256
  reduces_S128x16x256_S16x256 : S128x16x256.Reduces [0] S16x256
  shapeCasts_S16x256_S1x16x256 : S16x256.ShapeCasts S1x16x256
  broadcasts_S1x16x256_S128x16x256 : S1x16x256.Broadcasts S128x16x256
  inb_S1x16x256_S1x16x256_0_0_0 : ∀ a, (![0, 0, 0] : Fin 3 → Nat) a + S1x16x256.size a ≤ S1x16x256.size a
  h_S1x16x256 : 0 < S1x16x256.numel
  shapeCasts_S1x16x256_S16x256 : S1x16x256.ShapeCasts S16x256
  reducesTo_S8x256x256_S8_d1_2 : S8x256x256.ReducesTo [1, 2] S8
  h_S_ : 0 < S_.numel
  bcast_S_S8 : S_.BroadcastsInDim S8 (![] : Fin 0 → Fin S8.rank)
  reducesTo_S8_S_d0 : S8.ReducesTo [0] S_
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x1x1.size a ≤ S128x1x1.size a
  hwx0_0 : ∀ i : grid0.Coords, EltTy.bits .f32 = 32 ∨ (Rect.block (s := S128x1x1) S128x1x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x16x256.size a ≤ S8x128x256x256.size a
  hwx0_1 : ∀ i : grid0.Coords, EltTy.bits .f32 = 32 ∨ (Rect.block (s := S8x128x256x256) S1x128x16x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x16x256.size a ≤ S8x128x256x256.size a
  hwx0_2 : ∀ i : grid0.Coords, EltTy.bits .f32 = 32 ∨ (Rect.block (s := S8x128x256x256) S1x128x16x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x256.size a ≤ S8x256x256.size a
  hwx0_3 : ∀ i : grid0.Coords, EltTy.bits .f32 = 32 ∨ (Rect.block (s := S8x256x256) S1x16x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16x256.size a ≤ S8x256x256.size a
  hwx0_4 : ∀ i : grid0.Coords, EltTy.bits .f32 = 32 ∨ (Rect.block (s := S8x256x256) S1x16x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x16x256.size a ≤ S8x256x256.size a
  hwx0_5 : ∀ i : grid0.Coords, EltTy.bits .f32 = 32 ∨ (Rect.block (s := S8x256x256) S1x16x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x16x256.size a ≤ S8x256x256.size a
  hwx0_6 : ∀ i : grid0.Coords, EltTy.bits .f32 = 32 ∨ (Rect.block (s := S8x256x256) S1x16x256.size (cc0_transform_6 i) (hinb0_6 i)).WholeWords (EltTy.packing .f32)

variable [Facts₀]

abbrev win0_0 : Pipeline.Window sig grid0 :=
  Pipeline.Window.ofSpec (Memref.whole main_v0) S128x1x1.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x128x16x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x128x16x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x16x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x16x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_0) S1x16x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3_1) S1x16x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x128x256x256 : Shape := ⟨4, ![8, 128, 256, 256]⟩
abbrev S128 : Shape := ⟨1, ![128]⟩
abbrev S8x256x256 : Shape := ⟨3, ![8, 256, 256]⟩
abbrev S8x1x256x256 : Shape := ⟨4, ![8, 1, 256, 256]⟩
abbrev S_ : Shape := ⟨0, ![]⟩
abbrev S8 : Shape := ⟨1, ![8]⟩
abbrev S8x256x256x128 : Shape := ⟨4, ![8, 256, 256, 128]⟩
abbrev S1x1x1x128 : Shape := ⟨4, ![1, 1, 1, 128]⟩
abbrev S8x256x256x1 : Shape := ⟨4, ![8, 256, 256, 1]⟩

abbrev nBuf : Space → Nat
  | .hbm => 105
  | .vmem => 0
  | .smem => 0
  | _ => 0

abbrev bufTy : (tb : Table) → Fin (tcTables nBuf tb) → BufTy
  | .hbm, ⟨0, _⟩ => ⟨S8x128x256x256, .f32⟩
  | .hbm, ⟨1, _⟩ => ⟨S8x128x256x256, .f32⟩
  | .hbm, ⟨2, _⟩ => ⟨S128, .f32⟩
  | .hbm, ⟨3, _⟩ => ⟨S8x256x256, .i1⟩
  | .hbm, ⟨4, _⟩ => ⟨S8x1x256x256, .f32⟩
  | .hbm, ⟨5, _⟩ => ⟨S8x256x256, .f32⟩
  | .hbm, ⟨6, _⟩ => ⟨S_, .f32⟩
  | .hbm, ⟨7, _⟩ => ⟨S8x256x256, .f32⟩
  | .hbm, ⟨8, _⟩ => ⟨S8x256x256, .i1⟩
  | .hbm, ⟨9, _⟩ => ⟨S8x256x256, .i1⟩
  | .hbm, ⟨10, _⟩ => ⟨S8x256x256, .i1⟩
  | .hbm, ⟨11, _⟩ => ⟨S8x256x256, .i32⟩
  | .hbm, ⟨12, _⟩ => ⟨S_, .i32⟩
  | .hbm, ⟨13, _⟩ => ⟨S8, .i32⟩
  | .hbm, ⟨14, _⟩ => ⟨S8, .f32⟩
  | .hbm, ⟨15, _⟩ => ⟨S8x256x256x128, .f32⟩
  | .hbm, ⟨16, _⟩ => ⟨S8x256x256x128, .f32⟩
  | .hbm, ⟨17, _⟩ => ⟨S1x1x1x128, .f32⟩
  | .hbm, ⟨18, _⟩ => ⟨S8x256x256x128, .f32⟩
  | .hbm, ⟨19, _⟩ => ⟨S8x256x256x128, .f32⟩
  | .hbm, ⟨20, _⟩ => ⟨S8x256x256x128, .f32⟩
  | .hbm, ⟨21, _⟩ => ⟨S_, .f32⟩
  | .hbm, ⟨22, _⟩ => ⟨S8x256x256, .f32⟩
  | .hbm, ⟨23, _⟩ => ⟨S8x256x256x1, .f32⟩
  | .hbm, ⟨24, _⟩ => ⟨S8x256x256x1, .f32⟩
  | .hbm, ⟨25, _⟩ => ⟨S_, .f32⟩
  | .hbm, ⟨26, _⟩ => ⟨S8x256x256x1, .f32⟩
  | .hbm, ⟨27, _⟩ => ⟨S8x256x256x1, .f32⟩
  | .hbm, ⟨28, _⟩ => ⟨S8x256x256x128, .f32⟩
  | .hbm, ⟨29, _⟩ => ⟨S8x256x256x128, .f32⟩
  | .hbm, ⟨30, _⟩ => ⟨S8x256x256x128, .f32⟩
  | .hbm, ⟨31, _⟩ => ⟨S_, .f32⟩
  | .hbm, ⟨32, _⟩ => ⟨S8x256x256, .f32⟩
  | .hbm, ⟨33, _⟩ => ⟨S8x256x256x1, .f32⟩
  | .hbm, ⟨34, _⟩ => ⟨S8x256x256x1, .f32⟩
  | .hbm, ⟨35, _⟩ => ⟨S_, .f32⟩
  | .hbm, ⟨36, _⟩ => ⟨S8x256x256x1, .f32⟩
  | .hbm, ⟨37, _⟩ => ⟨S8x256x256x1, .f32⟩
  | .hbm, ⟨38, _⟩ => ⟨S8x256x256x128, .f32⟩
  | .hbm, ⟨39, _⟩ => ⟨S8x256x256x128, .f32⟩
  | .hbm, ⟨40, _⟩ => ⟨S_, .f32⟩
  | .hbm, ⟨41, _⟩ => ⟨S8x256x256x128, .f32⟩
  | .hbm, ⟨42, _⟩ => ⟨S8x256x256x128, .f32⟩
  | .hbm, ⟨43, _⟩ => ⟨S_, .f32⟩
  | .hbm, ⟨44, _⟩ => ⟨S8x256x256, .f32⟩
  | .hbm, ⟨45, _⟩ => ⟨S_, .f32⟩
  | .hbm, ⟨46, _⟩ => ⟨S8x256x256, .f32⟩
  | .hbm, ⟨47, _⟩ => ⟨S8x256x256, .f32⟩
  | .hbm, ⟨48, _⟩ => ⟨S8x256x256x1, .f32⟩
  | .hbm, ⟨49, _⟩ => ⟨S8x256x256x128, .f32⟩
  | .hbm, ⟨50, _⟩ => ⟨S8x256x256x128, .f32⟩
  | .hbm, ⟨51, _⟩ => ⟨S8x256x256x128, .f32⟩
  | .hbm, ⟨52, _⟩ => ⟨S_, .f32⟩
  | .hbm, ⟨53, _⟩ => ⟨S8x256x256, .f32⟩
  | .hbm, ⟨54, _⟩ => ⟨S8x256x256x1, .f32⟩
  | .hbm, ⟨55, _⟩ => ⟨S8x256x256x128, .f32⟩
  | .hbm, ⟨56, _⟩ => ⟨S8x256x256x128, .f32⟩
  | .hbm, ⟨57, _⟩ => ⟨S_, .f32⟩
  | .hbm, ⟨58, _⟩ => ⟨S8x256x256x128, .f32⟩
  | .hbm, ⟨59, _⟩ => ⟨S8x256x256x128, .f32⟩
  | .hbm, ⟨60, _⟩ => ⟨S_, .f32⟩
  | .hbm, ⟨61, _⟩ => ⟨S8x256x256, .f32⟩
  | .hbm, ⟨62, _⟩ => ⟨S_, .f32⟩
  | .hbm, ⟨63, _⟩ => ⟨S8x256x256, .f32⟩
  | .hbm, ⟨64, _⟩ => ⟨S8x256x256, .f32⟩
  | .hbm, ⟨65, _⟩ => ⟨S8x256x256x1, .f32⟩
  | .hbm, ⟨66, _⟩ => ⟨S8x256x256x128, .f32⟩
  | .hbm, ⟨67, _⟩ => ⟨S8x256x256x128, .f32⟩
  | .hbm, ⟨68, _⟩ => ⟨S8x256x256x128, .f32⟩
  | .hbm, ⟨69, _⟩ => ⟨S_, .f32⟩
  | .hbm, ⟨70, _⟩ => ⟨S8x256x256, .f32⟩
  | .hbm, ⟨71, _⟩ => ⟨S8x256x256x1, .f32⟩
  | .hbm, ⟨72, _⟩ => ⟨S8x256x256x1, .f32⟩
  | .hbm, ⟨73, _⟩ => ⟨S8x256x256x128, .f32⟩
  | .hbm, ⟨74, _⟩ => ⟨S8x256x256x128, .f32⟩
  | .hbm, ⟨75, _⟩ => ⟨S8x256x256x128, .f32⟩
  | .hbm, ⟨76, _⟩ => ⟨S_, .f32⟩
  | .hbm, ⟨77, _⟩ => ⟨S8x256x256, .f32⟩
  | .hbm, ⟨78, _⟩ => ⟨S8x256x256, .f32⟩
  | .hbm, ⟨79, _⟩ => ⟨S8x256x256, .f32⟩
  | .hbm, ⟨80, _⟩ => ⟨S8x256x256, .f32⟩
  | .hbm, ⟨81, _⟩ => ⟨S_, .f32⟩
  | .hbm, ⟨82, _⟩ => ⟨S8, .f32⟩
  | .hbm, ⟨83, _⟩ => ⟨S_, .f32⟩
  | .hbm, ⟨84, _⟩ => ⟨S8, .f32⟩
  | .hbm, ⟨85, _⟩ => ⟨S8, .f32⟩
  | .hbm, ⟨86, _⟩ => ⟨S8, .f32⟩
  | .hbm, ⟨87, _⟩ => ⟨S_, .f32⟩
  | .hbm, ⟨88, _⟩ => ⟨S8, .f32⟩
  | .hbm, ⟨89, _⟩ => ⟨S8, .i1⟩
  | .hbm, ⟨90, _⟩ => ⟨S8, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S8, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .i1⟩
  | .hbm, ⟨103, _⟩ => ⟨S_, .f32⟩
  | .hbm, ⟨104, _⟩ => ⟨S_, .f32⟩
  | _, _ => ⟨S8x128x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_8 : Ref sig .tc := ⟨.hbm, 57, rfl⟩
abbrev main_v42 : Ref sig .tc := ⟨.hbm, 58, rfl⟩
abbrev main_v43 : Ref sig .tc := ⟨.hbm, 59, rfl⟩
abbrev main_call0_cst : Ref sig .tc := ⟨.hbm, 60, rfl⟩
abbrev main_call0_v0 : Ref sig .tc := ⟨.hbm, 61, rfl⟩
abbrev main_call0_cst_0 : Ref sig .tc := ⟨.hbm, 62, rfl⟩
abbrev main_call0_v1 : Ref sig .tc := ⟨.hbm, 63, rfl⟩
abbrev main_call0_v2 : Ref sig .tc := ⟨.hbm, 64, rfl⟩
abbrev main_call0_v3 : Ref sig .tc := ⟨.hbm, 65, rfl⟩
abbrev main_call0_v4 : Ref sig .tc := ⟨.hbm, 66, rfl⟩
abbrev main_call0_v5 : Ref sig .tc := ⟨.hbm, 67, rfl⟩
abbrev main_call0_v6 : Ref sig .tc := ⟨.hbm, 68, rfl⟩
abbrev main_call0_cst_1 : Ref sig .tc := ⟨.hbm, 69, rfl⟩
abbrev main_call0_v7 : Ref sig .tc := ⟨.hbm, 70, rfl⟩
abbrev main_call0_v8 : Ref sig .tc := ⟨.hbm, 71, rfl⟩
abbrev main_call0_v9 : Ref sig .tc := ⟨.hbm, 72, rfl⟩
abbrev main_call0_v10 : Ref sig .tc := ⟨.hbm, 73, rfl⟩
abbrev main_v44 : Ref sig .tc := ⟨.hbm, 74, rfl⟩
abbrev main_v45 : Ref sig .tc := ⟨.hbm, 75, rfl⟩
abbrev main_cst_9 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_cst_10 : Ref sig .tc := ⟨.hbm, 81, rfl⟩
abbrev main_v50 : Ref sig .tc := ⟨.hbm, 82, rfl⟩
abbrev main_cst_11 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_cst_12 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_cst_13 : Ref sig .tc := ⟨.hbm, 91, rfl⟩
abbrev main_v57 : Ref sig .tc := ⟨.hbm, 92, rfl⟩
abbrev main_cst_14 : Ref sig .tc := ⟨.hbm, 93, rfl⟩
abbrev main_v58 : Ref sig .tc := ⟨.hbm, 94, rfl⟩
abbrev main_v59 : Ref sig .tc := ⟨.hbm, 95, rfl⟩
abbrev main_cst_15 : Ref sig .tc := ⟨.hbm, 96, rfl⟩
abbrev main_v60 : Ref sig .tc := ⟨.hbm, 97, rfl⟩
abbrev main_v61 : Ref sig .tc := ⟨.hbm, 98, rfl⟩
abbrev main_cst_16 : Ref sig .tc := ⟨.hbm, 99, rfl⟩
abbrev main_v62 : Ref sig .tc := ⟨.hbm, 100, rfl⟩
abbrev main_cst_17 : Ref sig .tc := ⟨.hbm, 101, rfl⟩
abbrev main_v63 : Ref sig .tc := ⟨.hbm, 102, rfl⟩
abbrev main_cst_18 : Ref sig .tc := ⟨.hbm, 103, rfl⟩
abbrev main_v64 : Ref sig .tc := ⟨.hbm, 104, rfl⟩

abbrev nD : Nat := 1
abbrev τ : Topo := Topo.v7x

variable {F : FTy → Type} [FloatOps F]

class Facts₀ : Prop where
  shapeCasts_S8x1x256x256_S8x256x256 : S8x1x256x256.ShapeCasts S8x256x256
  bcast_S_S8x256x256 : S_.BroadcastsInDim S8x256x256 (![] : Fin 0 → Fin S8x256x256.rank)
  natLt_1_32 : 1 < 32
  reducesTo_S8x256x256_S8_d1_2 : S8x256x256.ReducesTo [1, 2] S8
  h_S_ : 0 < S_.numel
  transposes_S8x128x256x256_S8x256x256x128_0_2_3_1 : S8x128x256x256.Transposes [0, 2, 3, 1] S8x256x256x128
  bcast_S128_S1x1x1x128_3 : S128.BroadcastsInDim S1x1x1x128 (![3] : Fin 1 → Fin S1x1x1x128.rank)
  bcast_S1x1x1x128_S8x256x256x128_0_1_2_3 : S1x1x1x128.BroadcastsInDim S8x256x256x128 (![0, 1, 2, 3] : Fin 4 → Fin S8x256x256x128.rank)
  reducesTo_S8x256x256x128_S8x256x256_d3 : S8x256x256x128.ReducesTo [3] S8x256x256
  bcast_S8x256x256_S8x256x256x1_0_1_2 : S8x256x256.BroadcastsInDim S8x256x256x1 (![0, 1, 2] : Fin 3 → Fin S8x256x256x1.rank)
  bcast_S_S8x256x256x1 : S_.BroadcastsInDim S8x256x256x1 (![] : Fin 0 → Fin S8x256x256x1.rank)
  bcast_S8x256x256x1_S8x256x256x128_0_1_2_3 : S8x256x256x1.BroadcastsInDim S8x256x256x128 (![0, 1, 2, 3] : Fin 4 → Fin S8x256x256x128.rank)
  bcast_S_S8x256x256x128 : S_.BroadcastsInDim S8x256x256x128 (![] : Fin 0 → Fin S8x256x256x128.rank)
  bcast_S_S8 : S_.BroadcastsInDim S8 (![] : Fin 0 → Fin S8.rank)
  reducesTo_S8_S_d0 : S8.ReducesTo [0] S_

variable [Facts₀]

class Facts : Prop extends Facts₀ where

variable [Facts]
-- ==== Proof.Spec.lean ====
/-
  What the pixel-wise self-distillation loss computes, as functions on the extended reals, in the two
  arrangements the two programs use, and the segment-mean tail both programs end with.

  A pixel (b, h, w) carries a student row x (the 128 channels of the student features there) and a teacher row y
  (the teacher's channels less the per-channel centre). Both rows are scaled to unit Euclidean length (the length
  clamped from below by a small epsilon) and divided by a temperature; the teacher row becomes a probability vector
  p by a softmax, the student row a vector of log-probabilities by a log-softmax, and the pixel's loss is
  -∑ p·log q. One arrangement multiplies by the reciprocals and keeps the log-sum-exp apart
  (log ∑ exp(shifted) - ∑ p·shifted, right because ∑ p = 1); the other divides and subtracts the log-sum-exp inside
  the sum. A pixel counts when its image value is not zero and it is not masked.
-/
import Idealize.ShloMosaic.PureOps
import Idealize.ShloMosaic.PureOps.Ideal
import Idealize.ShloMosaic.PureOps.Ideal.Laws
import Idealize.ShloMosaic.Lib.ValueIdx

noncomputable section

namespace Cert.Dino

open Idealize.ShloMosaic Idealize.ShloMosaic.ValueIdx

/-! ## Shapes -/

abbrev SBDHW : Shape := ⟨4, ![8, 128, 256, 256]⟩
abbrev SD : Shape := ⟨1, ![128]⟩
abbrev SBHW : Shape := ⟨3, ![8, 256, 256]⟩
abbrev SB1HW : Shape := ⟨4, ![8, 1, 256, 256]⟩
abbrev SB : Shape := ⟨1, ![8]⟩
abbrev S0 : Shape := ⟨0, ![]⟩

/-! ## Constants -/

/-- The clamp of a row's length: the f32 nearest 1e-12. -/
def eps : EReal := Ideal.ofBits .f32 0x2B8CBCCC#32
def one : EReal := Ideal.ofBits .f32 0x3F800000#32
def zero : EReal := Ideal.ofBits .f32 0x00000000#32
/-- The student temperature, the f32 nearest 0.1, and the teacher's, the f32 nearest 0.04. -/
def tauS : EReal := Ideal.ofBits .f32 0x3DCCCCCD#32
def tauT : EReal := Ideal.ofBits .f32 0x3D23D70A#32
/-- Their exact reciprocals. -/
def invTauS : EReal := ((134217728 / 13421773 : ℝ) : EReal)
def invTauT : EReal := ((134217728 / 5368709 : ℝ) : EReal)

/-! ## One row of 128 channels -/

/-- A row's maximum, as a fold from minus infinity. -/
def rowMax (z : Fin 128 → EReal) : EReal := (Finset.univ : Finset (Fin 128)).fold max ⊥ z

/-- A row's Euclidean length, clamped from below. -/
def nrm (x : Fin 128 → EReal) : EReal := max (Ideal.sqrt (∑ d : Fin 128, x d * x d)) eps

/-- Scaling by the reciprocal of the length times the reciprocal temperature `c`. -/
def scaledK (c : EReal) (x : Fin 128 → EReal) : Fin 128 → EReal := fun d => x d * (Ideal.div one (nrm x) * c)

/-- Dividing by the length, then by the temperature `t`. -/
def scaledR (t : EReal) (x : Fin 128 → EReal) : Fin 128 → EReal := fun d => Ideal.div (Ideal.div (x d) (nrm x)) t

/-- A row less its maximum. -/
def shift (z : Fin 128 → EReal) : Fin 128 → EReal := fun d => z d - rowMax z

/-- The exponentials of the shifted row. -/
def expShift (z : Fin 128 → EReal) : Fin 128 → EReal := fun d => Ideal.exp (shift z d)

/-- The loss of a pixel, reciprocals multiplied in and the log-sum-exp kept apart. -/
def lossK (x y : Fin 128 → EReal) : EReal :=
  Ideal.log (∑ d : Fin 128, expShift (scaledK invTauS x) d)
    - ∑ d : Fin 128, (expShift (scaledK invTauT y) d * Ideal.div one (∑ e : Fin 128, expShift (scaledK invTauT y) e))
        * shift (scaledK invTauS x) d

/-- The loss of a pixel as minus the sum of probability times log-probability. -/
def lossR (x y : Fin 128 → EReal) : EReal :=
  - ∑ d : Fin 128, Ideal.div (expShift (scaledR tauT y) d) (∑ e : Fin 128, expShift (scaledR tauT y) e)
      * (shift (scaledR tauS x) d - Ideal.log (∑ e : Fin 128, expShift (scaledR tauS x) e))

/-! ## Which pixels count -/

/-- 1 where the image value is not zero, times one less the mask given as a number. -/
def vmKf (oxv mkf : EReal) : EReal :=
  Scalar.select (Ideal.cmp .one oxv zero) one zero * (one - mkf)

/-- The same from the mask bit: the bit read as the number 0 or 1. -/
def vmK (oxv : EReal) (mkb : BitVec 1) : EReal := vmKf oxv ((mkb.toNat : ℝ) : EReal)

/-- The bit "not zero and not masked". -/
def validBit (oxv : EReal) (mkb : BitVec 1) : BitVec 1 := IntOp.andi (Ideal.cmp .une oxv zero) (~~~mkb)

/-- That bit as a number. -/
def vmR (oxv : EReal) (mkb : BitVec 1) : EReal := (((validBit oxv mkb).toNat : ℝ) : EReal)

/-! ## The arrays -/

/-- The student row of pixel (b, h, w). -/
def rowS (s : SBDHW.Idx → EReal) (b : Fin 8) (h w : Fin 256) : Fin 128 → EReal := fun d => s (ix4 b d h w)

/-- The centred teacher row of pixel (b, h, w). -/
def rowT (t : SBDHW.Idx → EReal) (c : SD.Idx → EReal) (b : Fin 8) (h w : Fin 256) : Fin 128 → EReal :=
  fun d => t (ix4 b d h w) - c (ix1 d)

/-- The array of counting pixels, in the multiplied form. -/
def vmArrK (mk : SBHW.Idx → BitVec 1) (ox : SB1HW.Idx → EReal) : SBHW.Idx → EReal :=
  fun i => vmK (ox (ix4 (i 0) 0 (i 1) (i 2))) (mk i)

/-- The array of counting bits. -/
def validArr (mk : SBHW.Idx → BitVec 1) (ox : SB1HW.Idx → EReal) : SBHW.Idx → BitVec 1 :=
  fun i => validBit (ox (ix4 (i 0) 0 (i 1) (i 2))) (mk i)

/-- The array of counting pixels, as the bits read as numbers. -/
def vmArrR (mk : SBHW.Idx → BitVec 1) (ox : SB1HW.Idx → EReal) : SBHW.Idx → EReal :=
  fun i => vmR (ox (ix4 (i 0) 0 (i 1) (i 2))) (mk i)

/-- The masked loss array, first arrangement. -/
def maskedK (s t : SBDHW.Idx → EReal) (c : SD.Idx → EReal) (mk : SBHW.Idx → BitVec 1) (ox : SB1HW.Idx → EReal) :
    SBHW.Idx → EReal :=
  fun i => lossK (rowS s (i 0) (i 1) (i 2)) (rowT t c (i 0) (i 1) (i 2)) * vmArrK mk ox i

/-- The masked loss array, second arrangement. -/
def maskedR (s t : SBDHW.Idx → EReal) (c : SD.Idx → EReal) (mk : SBHW.Idx → BitVec 1) (ox : SB1HW.Idx → EReal) :
    SBHW.Idx → EReal :=
  fun i => lossR (rowS s (i 0) (i 1) (i 2)) (rowT t c (i 0) (i 1) (i 2)) * vmArrR mk ox i

/-! ## The segment mean -/

section
variable (h12 : SBHW.ReducesTo [1, 2] SB) (h0 : 0 < S0.numel) (hb : S0.BroadcastsInDim SB (![] : Fin 0 → Fin SB.rank))
  (hr0 : SB.ReducesTo [0] S0)

/-- Per image the sum of the masked losses over the count (at least 1), averaged over the images that have a counting
    pixel (their number at least 1), and 0 when no pixel counts at all. -/
def tail (masked : FVec Ideal SBHW .f32) (counts : FVec Ideal SB .f32) : FVec Ideal S0 .f32 :=
  select (cmpf .ogt (Host.reduceAdd counts (constant (F := Ideal) S0 .f32 0x00000000#32) hr0 h0) (constant (F := Ideal) S0 .f32 0x00000000#32))
    (Host.divf
      (Host.reduceAdd
        (mulf (Host.divf (Host.reduceAdd masked (constant (F := Ideal) S0 .f32 0x00000000#32) h12 h0)
                (maximumf counts (broadcastInDim SB ![] hb (constant (F := Ideal) S0 .f32 0x3F800000#32))))
          (uitofp .f32 (cmpf .ogt counts (broadcastInDim SB ![] hb (constant (F := Ideal) S0 .f32 0x00000000#32)))))
        (constant (F := Ideal) S0 .f32 0x00000000#32) hr0 h0)
      (maximumf
        (Host.reduceAdd (uitofp .f32 (cmpf .ogt counts (broadcastInDim SB ![] hb (constant (F := Ideal) S0 .f32 0x00000000#32))))
          (constant (F := Ideal) S0 .f32 0x00000000#32) hr0 h0)
        (constant (F := Ideal) S0 .f32 0x3F800000#32)))
    (constant (F := Ideal) S0 .f32 0x00000000#32)

/-- The counts as a float sum of the counting pixels. -/
def countsK (vm : FVec Ideal SBHW .f32) : FVec Ideal SB .f32 :=
  Host.reduceAdd vm (constant (F := Ideal) S0 .f32 0x00000000#32) h12 h0

/-- The counts as an integer sum of the counting bits, read as a number. -/
def countsR (h132 : 1 < 32) (v : SBHW.Idx → BitVec 1) : FVec Ideal SB .f32 :=
  sitofp .f32 (Host.reduce IntOp.addi (extui 32 v h132) (constantI S0 32 0#32) h12 h0)

end

end Cert.Dino

end
-- ==== Proof.KArray.lean ====
/-
  What the two output arrays of the region hold after the run, index by index.

  The grid has 8 × 16 points; point (b, k) works on image b and on the band of 16 rows 16k … 16k + 15. Its student and
  teacher blocks are all 128 channels of that band, its image-value, mask and output blocks the band itself, and the
  centre block is the whole centre at every point. So the block a point writes back is the band (b, k) of one function
  of the whole argument arrays — the masked loss of each pixel, respectively the counting factor of each pixel — and
  the 128 bands tile the [8, 256, 256] arrays.
-/
import proofs.«125939_j62036507623554_2_alg».proof.Proof.Gen.KernelIdeal.Frame
import proofs.«125939_j62036507623554_2_alg».proof.Proof.Spec
import Idealize.ShloMosaic.Lib.Pipeline.Value
import Idealize.ShloMosaic.Lib.ValueIdx
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KArray

open Cert.KernelIdeal Cert.KernelIdeal.Gen

variable (m : (ℓ : Loc nD τ sig) → Buf (Elt Ideal) ℓ) (ρ : Dev nD → PrngReg)

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## The arrays the host lines before the region write -/

/-- The centre as a [128, 1, 1] array. -/
theorem V_v0 (c : Dev nD) : (V m c main_v0 : S128x1x1.Idx → EReal)
    = shapeCast S128x1x1 (m ((c : Thread nD τ).loc main_arg2)) shapeCasts_S128_S128x1x1 := by
  show StableHlo.after hostOps0 (fun b => m (c, b)) (Proc.devRef .tc main_v0) = _
  after_results
  all_goals rfl

/-- The image values without their unit axis. -/
theorem V_v1 (c : Dev nD) : (V m c main_v1 : S8x256x256.Idx → EReal)
    = shapeCast S8x256x256 (m ((c : Thread nD τ).loc main_arg4)) shapeCasts_S8x1x256x256_S8x256x256 := by
  show StableHlo.after hostOps0 (fun b => m (c, b)) (Proc.devRef .tc main_v1) = _
  after_results
  all_goals rfl

/-- The mask bits as numbers. -/
theorem V_v2 (c : Dev nD) : (V m c main_v2 : S8x256x256.Idx → EReal)
    = uitofp (F := Ideal) .f32 (m ((c : Thread nD τ).loc main_arg3)) := by
  show StableHlo.after hostOps0 (fun b => m (c, b)) (Proc.devRef .tc main_v2) = _
  after_results
  all_goals rfl

/-! ## Where the blocks of a point lie -/

/-- The printed index maps, decided over the grid: the band of every window is the output's band, the channel and lane
    block indices are zero, the centre's block is the whole centre. -/
theorem idx_facts : ∀ t : Fin cfg0.N,
    win0_5.index t (0 : Fin 3) < 8 ∧ win0_5.index t (1 : Fin 3) < 16 ∧ win0_5.index t (2 : Fin 3) = 0
    ∧ win0_6.index t (0 : Fin 3) = win0_5.index t (0 : Fin 3) ∧ win0_6.index t (1 : Fin 3) = win0_5.index t (1 : Fin 3) ∧ win0_6.index t (2 : Fin 3) = 0
    ∧ win0_0.index t (0 : Fin 3) = 0 ∧ win0_0.index t (1 : Fin 3) = 0 ∧ win0_0.index t (2 : Fin 3) = 0
    ∧ win0_1.index t (0 : Fin 4) = win0_5.index t (0 : Fin 3) ∧ win0_1.index t (1 : Fin 4) = 0 ∧ win0_1.index t (2 : Fin 4) = win0_5.index t (1 : Fin 3) ∧ win0_1.index t (3 : Fin 4) = 0
    ∧ win0_2.index t (0 : Fin 4) = win0_5.index t (0 : Fin 3) ∧ win0_2.index t (1 : Fin 4) = 0 ∧ win0_2.index t (2 : Fin 4) = win0_5.index t (1 : Fin 3) ∧ win0_2.index t (3 : Fin 4) = 0
    ∧ win0_3.index t (0 : Fin 3) = win0_5.index t (0 : Fin 3) ∧ win0_3.index t (1 : Fin 3) = win0_5.index t (1 : Fin 3) ∧ win0_3.index t (2 : Fin 3) = 0
    ∧ win0_4.index t (0 : Fin 3) = win0_5.index t (0 : Fin 3) ∧ win0_4.index t (1 : Fin 3) = win0_5.index t (1 : Fin 3) ∧ win0_4.index t (2 : Fin 3) = 0 :=
  (by decide +kernel : ∀ t : Fin grid0.N, _)

/-- Every band is some point's. -/
theorem idx_onto : ∀ (q0 : Fin 8) (q1 : Fin 16), ∃ t : Fin cfg0.N,
    win0_5.index t (0 : Fin 3) = q0.val ∧ win0_5.index t (1 : Fin 3) = q1.val :=
  (by decide +kernel : ∀ (q0 : Fin 8) (q1 : Fin 16), ∃ t : Fin grid0.N, win0_5.index t (0 : Fin 3) = q0.val ∧ win0_5.index t (1 : Fin 3) = q1.val)

/-! ## The blocks of a point, read off the argument arrays

Throughout, `b` is the point's image and `hh` the row `16·k + h` of the array that row `h` of the point's band is. -/

section
variable (c : Dev nD) (t : Fin cfg0.N) (h : Fin 16) (w : Fin 256) (b : Fin 8) (hh : Fin 256)
  (hb : b.val = win0_5.index t (0 : Fin 3)) (hhh : hh.val = win0_5.index t (1 : Fin 3) * 16 + h.val)
include hb hhh

/-- Where entry (0, h, w) of the first output's block sits in its array. -/
theorem emb5 : ((cfg0.win 5).blk t).view.emb (ix3 (0 : Fin 1) h w) = ix3 b hh w := by
  obtain ⟨e0, e1, e2, -⟩ := idx_facts t
  funext a; apply Fin.ext
  match a with
  | ⟨0, _⟩ => show win0_5.index t (0 : Fin 3) * 1 + 1 * 0 = b.val; omega
  | ⟨1, _⟩ => show win0_5.index t (1 : Fin 3) * 16 + 1 * h.val = hh.val; omega
  | ⟨2, _⟩ => show win0_5.index t (2 : Fin 3) * 256 + 1 * w.val = w.val; omega

/-- Where entry (0, h, w) of the second output's block sits in its array. -/
theorem emb6 : ((cfg0.win 6).blk t).view.emb (ix3 (0 : Fin 1) h w) = ix3 b hh w := by
  obtain ⟨e0, e1, e2, f0, f1, f2, -⟩ := idx_facts t
  funext a; apply Fin.ext
  match a with
  | ⟨0, _⟩ => show win0_6.index t (0 : Fin 3) * 1 + 1 * 0 = b.val; omega
  | ⟨1, _⟩ => show win0_6.index t (1 : Fin 3) * 16 + 1 * h.val = hh.val; omega
  | ⟨2, _⟩ => show win0_6.index t (2 : Fin 3) * 256 + 1 * w.val = w.val; omega

/-- The student block at channel d of (h, w) is the student array at (b, d, hh, w). -/
theorem iblk1_apply (d : Fin 128) :
    iblk m c 1 t (ix4 (0 : Fin 1) d h w) = (m ((c : Thread nD τ).loc main_arg0) : S8x128x256x256.Idx → EReal) (ix4 b d hh w) := by
  obtain ⟨e0, e1, e2, f0, f1, f2, g0, g1, g2, a0, a1, a2, a3, -⟩ := idx_facts t
  unfold iblk
  rw [View.read_apply]
  show V m c main_arg0 _ = _
  rw [V_main_arg0]
  congr 1
  funext a; apply Fin.ext
  match a with
  | ⟨0, _⟩ => show win0_1.index t (0 : Fin 4) * 1 + 1 * 0 = b.val; omega
  | ⟨1, _⟩ => show win0_1.index t (1 : Fin 4) * 128 + 1 * d.val = d.val; omega
  | ⟨2, _⟩ => show win0_1.index t (2 : Fin 4) * 16 + 1 * h.val = hh.val; omega
  | ⟨3, _⟩ => show win0_1.index t (3 : Fin 4) * 256 + 1 * w.val = w.val; omega

/-- The teacher block likewise. -/
theorem iblk2_apply (d : Fin 128) :
    iblk m c 2 t (ix4 (0 : Fin 1) d h w) = (m ((c : Thread nD τ).loc main_arg1) : S8x128x256x256.Idx → EReal) (ix4 b d hh w) := by
  obtain ⟨e0, e1, e2, f0, f1, f2, g0, g1, g2, a0, a1, a2, a3, b0, b1, b2, b3, -⟩ := idx_facts t
  unfold iblk
  rw [View.read_apply]
  show V m c main_arg1 _ = _
  rw [V_main_arg1]
  congr 1
  funext a; apply Fin.ext
  match a with
  | ⟨0, _⟩ => show win0_2.index t (0 : Fin 4) * 1 + 1 * 0 = b.val; omega
  | ⟨1, _⟩ => show win0_2.index t (1 : Fin 4) * 128 + 1 * d.val = d.val; omega
  | ⟨2, _⟩ => show win0_2.index t (2 : Fin 4) * 16 + 1 * h.val = hh.val; omega
  | ⟨3, _⟩ => show win0_2.index t (3 : Fin 4) * 256 + 1 * w.val = w.val; omega

/-- The image-value block at (h, w) is the image at (b, 0, hh, w). -/
theorem iblk3_apply :
    iblk m c 3 t (ix3 (0 : Fin 1) h w) = (m ((c : Thread nD τ).loc main_arg4) : S8x1x256x256.Idx → EReal) (ix4 b (0 : Fin 1) hh w) := by
  obtain ⟨e0, e1, e2, f0, f1, f2, g0, g1, g2, a0, a1, a2, a3, b0, b1, b2, b3, c0, c1, c2, -⟩ := idx_facts t
  have hbl : b.val < 8 := b.isLt
  have hhl : hh.val < 256 := hh.isLt
  have hwl : w.val < 256 := w.isLt
  unfold iblk
  rw [View.read_apply]
  show V m c main_v1 _ = _
  rw [V_v1]
  refine shapeCast_apply _ shapeCasts_S8x1x256x256_S8x256x256 _ (ix4 b (0 : Fin 1) hh w) ?_
  rewrite [Shape.rowMajor_val_four, Shape.rowMajor_val_three]
  show ((b.val * 1 + 0) * 256 + hh.val) * 256 + w.val
    = ((win0_3.index t (0 : Fin 3) * 1 + 1 * 0) * 256 + (win0_3.index t (1 : Fin 3) * 16 + 1 * h.val)) * 256 + (win0_3.index t (2 : Fin 3) * 256 + 1 * w.val)
  rw [c0, c1, c2, ← hb]
  omega

/-- The mask block at (h, w) is the mask bit at (b, hh, w) read as a number. -/
theorem iblk4_apply :
    iblk m c 4 t (ix3 (0 : Fin 1) h w)
      = ((((m ((c : Thread nD τ).loc main_arg3) : S8x256x256.Idx → BitVec 1) (ix3 b hh w)).toNat : ℝ) : EReal) := by
  obtain ⟨e0, e1, e2, f0, f1, f2, g0, g1, g2, a0, a1, a2, a3, b0, b1, b2, b3, c0, c1, c2, d0, d1, d2⟩ := idx_facts t
  unfold iblk
  rw [View.read_apply]
  show V m c main_v2 _ = _
  rw [V_v2]
  show ((((m ((c : Thread nD τ).loc main_arg3) : S8x256x256.Idx → BitVec 1) _).toNat : ℝ) : EReal) = _
  congr 4
  funext a; apply Fin.ext
  match a with
  | ⟨0, _⟩ => show win0_4.index t (0 : Fin 3) * 1 + 1 * 0 = b.val; omega
  | ⟨1, _⟩ => show win0_4.index t (1 : Fin 3) * 16 + 1 * h.val = hh.val; omega
  | ⟨2, _⟩ => show win0_4.index t (2 : Fin 3) * 256 + 1 * w.val = w.val; omega

end

/-- The centre block at channel d is the centre at d, at every point. -/
theorem iblk0_apply (c : Dev nD) (t : Fin cfg0.N) (d : Fin 128) :
    iblk m c 0 t (ix3 d (0 : Fin 1) (0 : Fin 1)) = (m ((c : Thread nD τ).loc main_arg2) : S128.Idx → EReal) (ix1 d) := by
  obtain ⟨e0, e1, e2, f0, f1, f2, g0, g1, g2, -⟩ := idx_facts t
  unfold iblk
  rw [View.read_apply]
  show V m c main_v0 _ = _
  rw [V_v0]
  refine shapeCast_apply _ shapeCasts_S128_S128x1x1 _ (ix1 d) ?_
  rewrite [Shape.rowMajor_val_one, Shape.rowMajor_val_three]
  show d.val = ((win0_0.index t (0 : Fin 3) * 128 + 1 * d.val) * 1 + (win0_0.index t (1 : Fin 3) * 1 + 1 * 0)) * 1 + (win0_0.index t (2 : Fin 3) * 1 + 1 * 0)
  rw [g0, g1, g2]
  omega

/-! ## What a point writes back -/

section
-- the body's two stores at an entry of the block, as functions of the loaded blocks at the matching entries
variable
  (hp2 : ∀ (x0 : Vec Ideal S128x1x1 .f32) (x1 x2 : Vec Ideal S1x128x16x256 .f32) (x3 x4 : Vec Ideal S1x16x256 .f32) (h : Fin 16) (w : Fin 256),
      k0_pay2 (F := Ideal) (k0_pay4 x1) (k0_pay5 x0 x2) x3 x4 (ix3 (0 : Fin 1) h w)
        = Cert.Dino.lossK (fun d => x1 (ix4 (0 : Fin 1) d h w)) (fun d => x2 (ix4 (0 : Fin 1) d h w) - x0 (ix3 d (0 : Fin 1) (0 : Fin 1)))
            * Cert.Dino.vmKf (x3 (ix3 (0 : Fin 1) h w)) (x4 (ix3 (0 : Fin 1) h w)))
  (hp3 : ∀ (x3 x4 : Vec Ideal S1x16x256 .f32) (h : Fin 16) (w : Fin 256),
      k0_pay3 (F := Ideal) x3 x4 (ix3 (0 : Fin 1) h w) = Cert.Dino.vmKf (x3 (ix3 (0 : Fin 1) h w)) (x4 (ix3 (0 : Fin 1) h w)))

/-- The masked loss array of the arguments. -/
abbrev G5 (c : Dev nD) : S8x256x256.Idx → EReal :=
  Cert.Dino.maskedK (m ((c : Thread nD τ).loc main_arg0)) (m ((c : Thread nD τ).loc main_arg1)) (m ((c : Thread nD τ).loc main_arg2))
    (m ((c : Thread nD τ).loc main_arg3)) (m ((c : Thread nD τ).loc main_arg4))

/-- The counting-factor array of the arguments. -/
abbrev G6 (c : Dev nD) : S8x256x256.Idx → EReal :=
  Cert.Dino.vmArrK (m ((c : Thread nD τ).loc main_arg3)) (m ((c : Thread nD τ).loc main_arg4))

/-- Every entry of a [1, 16, 256] block is entry (0, h, w). -/
theorem blk_idx (j : S1x16x256.Idx) : j = ix3 (0 : Fin 1) (j 1) (j 2) := by
  funext a; apply Fin.ext
  match a with
  | ⟨0, _⟩ => show (j 0).val = 0; have : (j 0).val < 1 := (j 0).isLt; omega
  | ⟨1, _⟩ => rfl
  | ⟨2, _⟩ => rfl

include hp2 in
set_option maxHeartbeats 1000000 in
/-- WHAT POINT t WRITES BACK to the first output is band t of the masked loss array. -/
theorem flushed5_eq (c : Dev nD) (t : Fin cfg0.N) :
    (dats m 0 c).flushed 5 t = ((cfg0.win 5).blk t).view.read (Elt Ideal) (G5 m c) := by
  show (cfg0.win 5).cut (grid0.coords t) ((dats m 0 c).after 5 t) = _
  rw [after0_5]
  unfold out0_5
  rw [View.canon_unit_zero hz3]
  simp only [View.ld_unit_zero (S := S1x16x256) hz3, View.ld_unit_zero (S := S1x128x16x256) hz4, View.ld_unit_zero (S := S128x1x1) hz3]
  obtain ⟨e0, e1, e2, -⟩ := idx_facts t
  funext j
  obtain ⟨h, w, rfl⟩ : ∃ (h : Fin 16) (w : Fin 256), j = ix3 (0 : Fin 1) h w := ⟨j 1, j 2, blk_idx j⟩
  have hhl : win0_5.index t (1 : Fin 3) * 16 + h.val < 256 := by have := h.isLt; omega
  show k0_pay2 (F := Ideal) (k0_pay4 (iblk m c 1 t)) (k0_pay5 (iblk m c 0 t) (iblk m c 2 t)) (iblk m c 3 t) (iblk m c 4 t) (ix3 (0 : Fin 1) h w)
    = G5 m c (((cfg0.win 5).blk t).view.emb (ix3 (0 : Fin 1) h w))
  rw [emb5 t h w ⟨win0_5.index t (0 : Fin 3), e0⟩ ⟨win0_5.index t (1 : Fin 3) * 16 + h.val, hhl⟩ rfl rfl]
  refine (hp2 _ _ _ _ _ h w).trans ?_
  have e1 : (fun d : Fin 128 => iblk m c 1 t (ix4 (0 : Fin 1) d h w))
      = Cert.Dino.rowS (m ((c : Thread nD τ).loc main_arg0)) ⟨win0_5.index t (0 : Fin 3), e0⟩ ⟨win0_5.index t (1 : Fin 3) * 16 + h.val, hhl⟩ w :=
    funext fun d => iblk1_apply m c t h w _ _ rfl rfl d
  have e2 : (fun d : Fin 128 => @HSub.hSub EReal EReal EReal instHSub (iblk m c 2 t (ix4 (0 : Fin 1) d h w)) (iblk m c 0 t (ix3 d (0 : Fin 1) (0 : Fin 1))))
      = Cert.Dino.rowT (m ((c : Thread nD τ).loc main_arg1)) (m ((c : Thread nD τ).loc main_arg2)) ⟨win0_5.index t (0 : Fin 3), e0⟩ ⟨win0_5.index t (1 : Fin 3) * 16 + h.val, hhl⟩ w :=
    funext fun d => by
      rw [iblk2_apply m c t h w ⟨win0_5.index t (0 : Fin 3), e0⟩ ⟨win0_5.index t (1 : Fin 3) * 16 + h.val, hhl⟩ rfl rfl d, iblk0_apply m c t d]
      rfl
  rw [e1, e2, iblk3_apply m c t h w ⟨win0_5.index t (0 : Fin 3), e0⟩ ⟨win0_5.index t (1 : Fin 3) * 16 + h.val, hhl⟩ rfl rfl,
    iblk4_apply m c t h w ⟨win0_5.index t (0 : Fin 3), e0⟩ ⟨win0_5.index t (1 : Fin 3) * 16 + h.val, hhl⟩ rfl rfl]
  rfl

include hp3 in
/-- WHAT POINT t WRITES BACK to the second output is band t of the counting-factor array. -/
theorem flushed6_eq (c : Dev nD) (t : Fin cfg0.N) :
    (dats m 0 c).flushed 6 t = ((cfg0.win 6).blk t).view.read (Elt Ideal) (G6 m c) := by
  show (cfg0.win 6).cut (grid0.coords t) ((dats m 0 c).after 6 t) = _
  rw [after0_6]
  unfold out0_6
  rw [View.canon_unit_zero hz3]
  simp only [View.ld_unit_zero (S := S1x16x256) hz3]
  obtain ⟨e0, e1, e2, -⟩ := idx_facts t
  funext j
  obtain ⟨h, w, rfl⟩ : ∃ (h : Fin 16) (w : Fin 256), j = ix3 (0 : Fin 1) h w := ⟨j 1, j 2, blk_idx j⟩
  have hhl : win0_5.index t (1 : Fin 3) * 16 + h.val < 256 := by have := h.isLt; omega
  show k0_pay3 (F := Ideal) (iblk m c 3 t) (iblk m c 4 t) (ix3 (0 : Fin 1) h w)
    = G6 m c (((cfg0.win 6).blk t).view.emb (ix3 (0 : Fin 1) h w))
  rw [emb6 t h w ⟨win0_5.index t (0 : Fin 3), e0⟩ ⟨win0_5.index t (1 : Fin 3) * 16 + h.val, hhl⟩ rfl rfl]
  refine (hp3 _ _ h w).trans ?_
  show _ = Cert.Dino.vmKf _ _
  congr 1
  · exact iblk3_apply m c t h w _ _ rfl rfl
  · exact iblk4_apply m c t h w _ _ rfl rfl

/-! ## The bands tile the arrays -/

/-- An index of the first output array is in point t's block iff each coordinate is in the block's range. -/
theorem mem_blk5 (t : Fin cfg0.N) (i : S8x256x256.Idx) :
    i ∈ ((cfg0.win 5).blk t).view.set ↔ ∀ a : Fin 3, win0_5.index t a * S1x16x256.size a ≤ (i a).val ∧ (i a).val < win0_5.index t a * S1x16x256.size a + S1x16x256.size a := by
  show i ∈ ((View.whole main_v3_0).slice (win0_5.rect t)).set ↔ _
  rw [View.set_slice_whole, Rect.mem_set_unit]
  exact Iff.rfl

theorem mem_blk6 (t : Fin cfg0.N) (i : S8x256x256.Idx) :
    i ∈ ((cfg0.win 6).blk t).view.set ↔ ∀ a : Fin 3, win0_6.index t a * S1x16x256.size a ≤ (i a).val ∧ (i a).val < win0_6.index t a * S1x16x256.size a + S1x16x256.size a := by
  show i ∈ ((View.whole main_v3_1).slice (win0_6.rect t)).set ↔ _
  rw [View.set_slice_whole, Rect.mem_set_unit]
  exact Iff.rfl

/-- Every index of the first output array is in the block of the point of its image and band. -/
theorem cover5 (i : S8x256x256.Idx) : ∃ t : Fin cfg0.N, (cfg0.win 5).flush t = true ∧ i ∈ ((cfg0.win 5).blk t).view.set := by
  have hi0 : (i 0).val < 8 := (i 0).isLt
  have hi1 : (i 1).val < 256 := (i 1).isLt
  have hi2 : (i 2).val < 256 := (i 2).isLt
  obtain ⟨t, q0, q1⟩ := idx_onto (i 0) ⟨(i 1).val / 16, by omega⟩
  obtain ⟨e0, e1, e2, -⟩ := idx_facts t
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 16 ≤ (i 1).val ∧ (i 1).val < win0_5.index t (1 : Fin 3) * 16 + 16
              have : win0_5.index t (1 : Fin 3) = (i 1).val / 16 := q1
              omega
  | ⟨2, _⟩ => show win0_5.index t (2 : Fin 3) * 256 ≤ (i 2).val ∧ (i 2).val < win0_5.index t (2 : Fin 3) * 256 + 256; omega

theorem cover6 (i : S8x256x256.Idx) : ∃ t : Fin cfg0.N, (cfg0.win 6).flush t = true ∧ i ∈ ((cfg0.win 6).blk t).view.set := by
  have hi0 : (i 0).val < 8 := (i 0).isLt
  have hi1 : (i 1).val < 256 := (i 1).isLt
  have hi2 : (i 2).val < 256 := (i 2).isLt
  obtain ⟨t, q0, q1⟩ := idx_onto (i 0) ⟨(i 1).val / 16, by omega⟩
  obtain ⟨e0, e1, e2, f0, f1, f2, -⟩ := idx_facts t
  refine ⟨t, flush0_6 t, ?_⟩
  rw [mem_blk6]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 16 ≤ (i 1).val ∧ (i 1).val < win0_6.index t (1 : Fin 3) * 16 + 16
              have : win0_5.index t (1 : Fin 3) = (i 1).val / 16 := q1
              omega
  | ⟨2, _⟩ => show win0_6.index t (2 : Fin 3) * 256 ≤ (i 2).val ∧ (i 2).val < win0_6.index t (2 : Fin 3) * 256 + 256; omega

/-! ## The arrays after the run -/

include hp2 in
theorem final5 (c : Dev nD) : (dats m 0 c).arrAt 5 cfg0.N = G5 m c :=
  (dats m 0 c).arrAt_eq_of_cover 5 (G5 m c) (fun t _ => flushed5_eq m hp2 c t) cover5

include hp3 in
theorem final6 (c : Dev nD) : (dats m 0 c).arrAt 6 cfg0.N = G6 m c :=
  (dats m 0 c).arrAt_eq_of_cover 6 (G6 m c) (fun t _ => flushed6_eq m hp3 c t) cover6

end

end Cert.KernelIdeal.KArray

end
-- ==== Proof.KTail.lean ====
/-
  The host lines that follow the region, read as one function of the two arrays the region leaves.

  After the region the program sums each image's masked losses and each image's counting factors, divides the first
  by the second (clamped below by one), averages over the images that have a counting pixel, and gives zero when no
  pixel counts.  Each line's result is its function of the buffers it reads; composing them from the last line back
  to the two arrays gives the segment mean of the specification.
-/
import proofs.«125939_j62036507623554_2_alg».proof.Proof.Gen.KernelIdeal.Frame
import proofs.«125939_j62036507623554_2_alg».proof.Proof.Spec
import Idealize.ShloMosaic.Lib.StableHlo.Run
import Idealize.ShloMosaic.Lib.Pipeline.Value

noncomputable section

namespace Cert.KernelIdeal.KTail

open Cert.KernelIdeal Cert.KernelIdeal.Gen Idealize.ShloMosaic Idealize.ShloMosaic.TcCoe Idealize.SL.Sem

variable (m : (ℓ : Loc nD τ sig) → Buf (Elt Ideal) ℓ)

/-- After the region the masked-loss array's buffer holds what the region's last point leaves in it. -/
theorem arr5 (c : Dev nD) (A5 : S8x256x256.Idx → EReal) (h5 : (dats m 0 c).arrAt 5 cfg0.N = A5) :
    Pipeline.withArrays (cfgs 0).spec c (V0 m c) (fun w => (dats m 0 c).arrAt w (cfgs 0).N) (Proc.devRef .tc main_v3_0) = A5 :=
  (Pipeline.withArrays_arr spec0 launch0.win.arr_inj c _ _ 5).trans h5

/-- Likewise the counting-factor array's buffer. -/
theorem arr6 (c : Dev nD) (A6 : S8x256x256.Idx → EReal) (h6 : (dats m 0 c).arrAt 6 cfg0.N = A6) :
    Pipeline.withArrays (cfgs 0).spec c (V0 m c) (fun w => (dats m 0 c).arrAt w (cfgs 0).N) (Proc.devRef .tc main_v3_1) = A6 :=
  (Pipeline.withArrays_arr spec0 launch0.win.arr_inj c _ _ 6).trans h6

/-- The result buffer after the lines that follow the region: the segment mean of the masked-loss array over the
    counts summed from the counting-factor array. -/
theorem tail_eq (c : Dev nD) (A5 A6 : S8x256x256.Idx → EReal)
    (h5 : (dats m 0 c).arrAt 5 cfg0.N = A5) (h6 : (dats m 0 c).arrAt 6 cfg0.N = A6) :
    Pipeline.afterTail₀ cfgs (dats m) 0 (V0 m) [hostOps1, hostOps1_1] c main_v19
      = Cert.Dino.tail reducesTo_S8x256x256_S8_d1_2 h_S_ bcast_S_S8 reducesTo_S8_S_d0 A5
          (Cert.Dino.countsK reducesTo_S8x256x256_S8_d1_2 h_S_ A6) := by
  unfold Pipeline.afterTail₀
  simp only [hostOps1, hostOps1_1, List.flatten_cons, List.flatten_nil, List.append_nil, List.cons_append, List.nil_append]
  after_results_simp
  rw [arr5 m c A5 h5, arr6 m c A6 h6]
  unfold Cert.Dino.tail Cert.Dino.countsK
  rfl

end Cert.KernelIdeal.KTail

end
-- ==== Proof.KRun.lean ====
/-
  The idealized kernel's run, read: the region leaves the masked loss array and the counting-factor array, and the
  host lines after it take the per-image sums, the counts as the sum of the counting factors, and the mean over the
  images that count.
-/
import proofs.«125939_j62036507623554_2_alg».proof.Proof.KArray
import proofs.«125939_j62036507623554_2_alg».proof.Proof.KTail

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KRun

open Cert.KernelIdeal Cert.KernelIdeal.Gen Cert.KernelIdeal.KArray

variable (m : (ℓ : Loc nD τ sig) → Buf (Elt Ideal) ℓ) (ρ : Dev nD → PrngReg)
variable
  (hp2 : ∀ (x0 : Vec Ideal S128x1x1 .f32) (x1 x2 : Vec Ideal S1x128x16x256 .f32) (x3 x4 : Vec Ideal S1x16x256 .f32) (h : Fin 16) (w : Fin 256),
      k0_pay2 (F := Ideal) (k0_pay4 x1) (k0_pay5 x0 x2) x3 x4 (ix3 (0 : Fin 1) h w)
        = Cert.Dino.lossK (fun d => x1 (ix4 (0 : Fin 1) d h w)) (fun d => x2 (ix4 (0 : Fin 1) d h w) - x0 (ix3 d (0 : Fin 1) (0 : Fin 1)))
            * Cert.Dino.vmKf (x3 (ix3 (0 : Fin 1) h w)) (x4 (ix3 (0 : Fin 1) h w)))
  (hp3 : ∀ (x3 x4 : Vec Ideal S1x16x256 .f32) (h : Fin 16) (w : Fin 256),
      k0_pay3 (F := Ideal) x3 x4 (ix3 (0 : Fin 1) h w) = Cert.Dino.vmKf (x3 (ix3 (0 : Fin 1) h w)) (x4 (ix3 (0 : Fin 1) h w)))

include hp2 hp3 in
/-- The idealized kernel's run: its result is the segment mean of the masked losses, with the counts the float sum of the
    counting factors; the arguments end unchanged. -/
theorem run : θ_run (defs (F := Ideal)) (onTc (τ := τ) (main (F := Ideal))) ⟨m, fun _ => 0, ρ⟩ (fun r => ∀ c : Dev nD,
      r.2.mem ((c.tc : Thread nD τ).loc main_v19)
        = Cert.Dino.tail reducesTo_S8x256x256_S8_d1_2 h_S_ bcast_S_S8 reducesTo_S8_S_d0 (G5 m c)
            (Cert.Dino.countsK reducesTo_S8x256x256_S8_d1_2 h_S_ (G6 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
      ⟨((h c).2 main_v19 (Pipeline.mem_restRefs_of main_v19 (by decide) (by decide))).trans
          (Cert.KernelIdeal.KTail.tail_eq m c (G5 m c) (G6 m c) (final5 m hp2 c) (final6 m hp3 c)),
       ((h c).1 1).trans (((dats m 0 c).arrAt_in 1 rfl _).trans ((A_eq m c 1).trans (V_main_arg0 m c))),
       ((h c).1 2).trans (((dats m 0 c).arrAt_in 2 rfl _).trans ((A_eq m c 2).trans (V_main_arg1 m c))),
       ((h c).2 main_arg2 (Pipeline.mem_restRefs_of main_arg2 (by decide) (by decide))).trans (W_main_arg2 m (dats m) c),
       ((h c).2 main_arg3 (Pipeline.mem_restRefs_of main_arg3 (by decide) (by decide))).trans (W_main_arg3 m (dats m) c),
       ((h c).2 main_arg4 (Pipeline.mem_restRefs_of main_arg4 (by decide) (by decide))).trans (W_main_arg4 m (dats m) c)⟩)
    (run_main m ρ)

end Cert.KernelIdeal.KRun

end
-- ==== Proof.KPayload.lean ====
/-
  The arithmetic of the kernel's body, read at one pixel of its block.

  A block holds 16 rows of 256 pixels of one image; each pixel carries the 128 channels of the student and of the
  teacher. The body scales the student row and the centred teacher row of every pixel to unit length (the length
  clamped from below) times a reciprocal temperature, shifts each by its maximum, and forms
  log ∑ exp(shifted student) - ∑ p · (shifted student), p the exponentials of the shifted teacher row over their
  sum; it multiplies by the factor that says whether the pixel counts. Every step is pointwise in the pixel, or a sum
  or a maximum over the channel axis, or a change of layout that adds, drops or repeats an axis of extent one; so
  the value at pixel (h, w) is the row functions of the specification applied to the pixel's two rows.
-/
import proofs.«125939_j62036507623554_2_alg».proof.Proof.Spec
import proofs.«125939_j62036507623554_2_alg».proof.Proof.Gen.KernelIdeal.Skeleton
import Idealize.ShloMosaic.PureOps.IdealRules
import Idealize.ShloMosaic.PureOps.Ideal.Laws
import Idealize.ShloMosaic.Lib.ValueLayout

noncomputable section

namespace Cert.KernelIdeal.KPayload

open Cert.KernelIdeal Cert.KernelIdeal.Gen Idealize.ShloMosaic Idealize.ShloMosaic.ValueIdx

/-! ## Changes of layout, read at explicit coordinates -/

/-- The [1,128,16,256] block viewed as [128,16,256]: entry (d, h, w) is entry (0, d, h, w). -/
theorem cast4 (x : Vec Ideal S1x128x16x256 .f32) (d : Fin 128) (h : Fin 16) (w : Fin 256) :
    shapeCast S128x16x256 x shapeCasts_S1x128x16x256_S128x16x256 (ix3 d h w) = x (ix4 (0 : Fin 1) d h w) :=
  shapeCast_1abc_abc_apply x _ d h w

/-- A [16,256] array viewed as [1,16,256]: entry (0, h, w) is entry (h, w). -/
theorem cast23 (v : FVec Ideal S16x256 .f32) (h : Fin 16) (w : Fin 256) :
    shapeCast S1x16x256 v shapeCasts_S16x256_S1x16x256 (ix3 (0 : Fin 1) h w) = v (ix2 h w) :=
  shapeCast_ab_1ab_apply v _ 0 h w

/-- A [1,16,256] block viewed as [16,256]: entry (h, w) is entry (0, h, w). -/
theorem cast32 (v : Vec Ideal S1x16x256 .f32) (h : Fin 16) (w : Fin 256) :
    shapeCast S16x256 v shapeCasts_S1x16x256_S16x256 (ix2 h w) = v (ix3 (0 : Fin 1) h w) :=
  shapeCast_1ab_ab_apply v _ h w

/-- A [1,16,256] array repeated along 128 channels: entry (d, h, w) is entry (0, h, w). -/
theorem bcast (v : FVec Ideal S1x16x256 .f32) (d : Fin 128) (h : Fin 16) (w : Fin 256) :
    broadcastTo S128x16x256 v broadcasts_S1x16x256_S128x16x256 (ix3 d h w) = v (ix3 (0 : Fin 1) h w) := by
  refine broadcastTo_apply v _ (ix3 d h w) (ix3 (0 : Fin 1) h w) fun ax => ?_
  match ax with
  | ⟨0, _⟩ => rfl
  | ⟨1, _⟩ => rfl
  | ⟨2, _⟩ => rfl

/-- The per-channel [128,1,1] array repeated over the pixels: entry (d, h, w) is entry (d, 0, 0). -/
theorem bcastC (v : FVec Ideal S128x1x1 .f32) (d : Fin 128) (h : Fin 16) (w : Fin 256) :
    broadcastTo S128x16x256 v broadcasts_S128x1x1_S128x16x256 (ix3 d h w) = v (ix3 d (0 : Fin 1) (0 : Fin 1)) := by
  refine broadcastTo_apply v _ (ix3 d h w) (ix3 d (0 : Fin 1) (0 : Fin 1)) fun ax => ?_
  match ax with
  | ⟨0, _⟩ => rfl
  | ⟨1, _⟩ => rfl
  | ⟨2, _⟩ => rfl

/-! ## Sums and maxima over the channel axis -/

/-- Pixel (h, w) with channel d put back on the reduced axis is (d, h, w). -/
theorem lift_eq (h : Fin 16) (w : Fin 256) (d : Fin 128) :
    reduces_S128x16x256_S16x256.lift (ix2 h w) d = ix3 d h w := by
  funext c
  refine Fin.ext ?_
  match c with
  | ⟨0, _⟩ => rfl
  | ⟨1, _⟩ => rfl
  | ⟨2, _⟩ => rfl

/-- The sum over the channel axis at pixel (h, w) is the sum of the pixel's row, whatever the row is known to be. -/
theorem sumD_of (v : FVec Ideal S128x16x256 .f32) (h : Fin 16) (w : Fin 256) (f : Fin 128 → EReal)
    (hf : ∀ d, v (ix3 d h w) = f d) :
    multiReduction .add [0] S16x256 v 0x00000000#32 reduces_S128x16x256_S16x256 (.inl rfl) rfl (ix2 h w)
      = ∑ d : Fin 128, f d :=
  (Ideal.multiReduction_add_single v 0x00000000#32 reduces_S128x16x256_S16x256 (.inl rfl) rfl (ix2 h w)).trans
    (Finset.sum_congr rfl fun d _ => (congrArg v (lift_eq h w d)).trans (hf d))

/-- The word of minus infinity denotes minus infinity. -/
theorem negInf : Ideal.ofBits .f32 0xFF800000#32 = ⊥ := by simp [Ideal.ofBits, Ideal.ieee]

/-- The maximum over the channel axis at pixel (h, w) is the maximum of the pixel's row, folded from minus infinity. -/
theorem maxD_of (v : FVec Ideal S128x16x256 .f32) (h : Fin 16) (w : Fin 256) (f : Fin 128 → EReal)
    (hf : ∀ d, v (ix3 d h w) = f d) :
    multiReduction .maximumf [0] S16x256 v 0xFF800000#32 reduces_S128x16x256_S16x256 (.inl rfl) rfl (ix2 h w)
      = Cert.Dino.rowMax f := by
  refine (Ideal.multiReduction_maximumf_single v 0xFF800000#32 reduces_S128x16x256_S16x256 (.inl rfl) rfl (ix2 h w)).trans ?_
  have e : (v ∘ reduces_S128x16x256_S16x256.lift (ix2 h w)) = f :=
    funext fun d => (congrArg v (lift_eq h w d)).trans (hf d)
  rw [e]
  exact congrArg (fun z => (Finset.univ : Finset (Fin 128)).fold max z f) negInf

/-! ## The named reciprocal temperatures -/

/-- The student's reciprocal temperature is the rational the table of named constants gives it. -/
theorem inv_tau_s : Named.named (F := Ideal) Cert.KernelIdeal.κ "inv_tau_s" (φ := .f32) 0x41200000#32 = Cert.Dino.invTauS :=
  IdealRules.named_const.ideal_named_scalar _ _ _ _ rfl

/-- The teacher's likewise. -/
theorem inv_tau_t : Named.named (F := Ideal) Cert.KernelIdeal.κ "inv_tau_t" (φ := .f32) 0x41C80000#32 = Cert.Dino.invTauT :=
  IdealRules.named_const.ideal_named_scalar _ _ _ _ rfl

/-! ## The stages of the body at a pixel -/

/-- Scaling a block's rows: each entry times (1 / clamped length of its pixel's row) times the constant `c`. -/
theorem scale_of (v : FVec Ideal S128x16x256 .f32) (c : Ideal .f32) (d : Fin 128) (h : Fin 16) (w : Fin 256)
    (f : Fin 128 → EReal) (hf : ∀ d, v (ix3 d h w) = f d) :
    mulf v (broadcastTo S128x16x256
        (mulf (divf (broadcast S1x16x256 (Scalar.ofBits .f32 0x3F800000#32))
            (maximumf (sqrt (shapeCast S1x16x256
                (multiReduction .add [0] S16x256 (mulf v v) 0x00000000#32 reduces_S128x16x256_S16x256 (.inl rfl) rfl)
                shapeCasts_S16x256_S1x16x256))
              (broadcast S1x16x256 (Scalar.ofBits .f32 0x2B8CBCCC#32))))
          (broadcast S1x16x256 c))
        broadcasts_S1x16x256_S128x16x256) (ix3 d h w)
      = Cert.Dino.scaledK c f d := by
  show v (ix3 d h w) * broadcastTo S128x16x256 _ broadcasts_S1x16x256_S128x16x256 (ix3 d h w) = _
  rw [bcast, hf d]
  show f d * (Ideal.div Cert.Dino.one (max (Ideal.sqrt (shapeCast S1x16x256 _ shapeCasts_S16x256_S1x16x256 (ix3 (0 : Fin 1) h w))) Cert.Dino.eps) * c) = _
  rw [cast23, sumD_of (mulf v v) h w (fun d => f d * f d) (fun d => by show v (ix3 d h w) * v (ix3 d h w) = _; rw [hf d])]
  rfl

/-- A block's rows less their maxima. -/
theorem shift_of (v : FVec Ideal S128x16x256 .f32) (d : Fin 128) (h : Fin 16) (w : Fin 256)
    (f : Fin 128 → EReal) (hf : ∀ d, v (ix3 d h w) = f d) :
    subf v (broadcastTo S128x16x256
        (shapeCast S1x16x256
          (multiReduction .maximumf [0] S16x256 v 0xFF800000#32 reduces_S128x16x256_S16x256 (.inl rfl) rfl)
          shapeCasts_S16x256_S1x16x256)
        broadcasts_S1x16x256_S128x16x256) (ix3 d h w)
      = Cert.Dino.shift f d := by
  show v (ix3 d h w) - broadcastTo S128x16x256 _ broadcasts_S1x16x256_S128x16x256 (ix3 d h w) = _
  rw [bcast, cast23, maxD_of v h w f hf, hf d]
  rfl

/-- The exponentials of a block's shifted rows. -/
theorem expShift_of (v : FVec Ideal S128x16x256 .f32) (d : Fin 128) (h : Fin 16) (w : Fin 256)
    (f : Fin 128 → EReal) (hf : ∀ d, v (ix3 d h w) = f d) :
    exp (subf v (broadcastTo S128x16x256
        (shapeCast S1x16x256
          (multiReduction .maximumf [0] S16x256 v 0xFF800000#32 reduces_S128x16x256_S16x256 (.inl rfl) rfl)
          shapeCasts_S16x256_S1x16x256)
        broadcasts_S1x16x256_S128x16x256)) (ix3 d h w)
      = Cert.Dino.expShift f d :=
  congrArg Ideal.exp (shift_of v d h w f hf)

/-- The reciprocal of a block's row sums, repeated along the channels. -/
theorem recipSum_of (v : FVec Ideal S128x16x256 .f32) (d : Fin 128) (h : Fin 16) (w : Fin 256)
    (f : Fin 128 → EReal) (hf : ∀ d, v (ix3 d h w) = f d) :
    broadcastTo S128x16x256
        (divf (broadcast S1x16x256 (Scalar.ofBits .f32 0x3F800000#32))
          (shapeCast S1x16x256
            (multiReduction .add [0] S16x256 v 0x00000000#32 reduces_S128x16x256_S16x256 (.inl rfl) rfl)
            shapeCasts_S16x256_S1x16x256))
        broadcasts_S1x16x256_S128x16x256 (ix3 d h w)
      = Ideal.div Cert.Dino.one (∑ e : Fin 128, f e) := by
  rw [bcast]
  show Ideal.div Cert.Dino.one (shapeCast S1x16x256 _ shapeCasts_S16x256_S1x16x256 (ix3 (0 : Fin 1) h w)) = _
  rw [cast23, sumD_of v h w f hf]

/-! ## The payloads at a pixel -/

/-- The scaled student rows: entry (d, h, w) is channel d of the scaled student row of pixel (h, w). -/
theorem pay4_at (x1 : Vec Ideal S1x128x16x256 .f32) (d : Fin 128) (h : Fin 16) (w : Fin 256) :
    k0_pay4 (F := Ideal) x1 (ix3 d h w)
      = Cert.Dino.scaledK Cert.Dino.invTauS (fun d => x1 (ix4 (0 : Fin 1) d h w)) d :=
  (scale_of (shapeCast S128x16x256 x1 shapeCasts_S1x128x16x256_S128x16x256)
      (Named.named (F := Ideal) Cert.KernelIdeal.κ "inv_tau_s" (φ := .f32) 0x41200000#32) d h w
      (fun d => x1 (ix4 (0 : Fin 1) d h w)) (fun d => cast4 x1 d h w)).trans
    (congrArg (fun c => Cert.Dino.scaledK c (fun d => x1 (ix4 (0 : Fin 1) d h w)) d) inv_tau_s)

/-- The centred teacher block: entry (d, h, w) is the teacher's less the centre's channel d. -/
theorem centred_at (x0 : Vec Ideal S128x1x1 .f32) (x2 : Vec Ideal S1x128x16x256 .f32) (d : Fin 128) (h : Fin 16) (w : Fin 256) :
    subf (F := Ideal) (φ := .f32) (shapeCast S128x16x256 x2 shapeCasts_S1x128x16x256_S128x16x256)
        (broadcastTo S128x16x256 (shapeCast S128x1x1 x0 shapeCasts_S128x1x1_S128x1x1) broadcasts_S128x1x1_S128x16x256)
        (ix3 d h w)
      = x2 (ix4 (0 : Fin 1) d h w) - x0 (ix3 d (0 : Fin 1) (0 : Fin 1)) := by
  show shapeCast S128x16x256 x2 shapeCasts_S1x128x16x256_S128x16x256 (ix3 d h w)
      - broadcastTo S128x16x256 (shapeCast S128x1x1 x0 shapeCasts_S128x1x1_S128x1x1) broadcasts_S128x1x1_S128x16x256 (ix3 d h w) = _
  rw [cast4, bcastC, shapeCast_self]

/-- The exponentials of the shifted scaled centred teacher rows. -/
theorem pay5_at (x0 : Vec Ideal S128x1x1 .f32) (x2 : Vec Ideal S1x128x16x256 .f32) (d : Fin 128) (h : Fin 16) (w : Fin 256) :
    k0_pay5 (F := Ideal) x0 x2 (ix3 d h w)
      = Cert.Dino.expShift (Cert.Dino.scaledK Cert.Dino.invTauT
          (fun d => x2 (ix4 (0 : Fin 1) d h w) - x0 (ix3 d (0 : Fin 1) (0 : Fin 1)))) d :=
  expShift_of _ d h w _ fun d' =>
    (scale_of (subf (F := Ideal) (φ := .f32) (shapeCast S128x16x256 x2 shapeCasts_S1x128x16x256_S128x16x256)
        (broadcastTo S128x16x256 (shapeCast S128x1x1 x0 shapeCasts_S128x1x1_S128x1x1) broadcasts_S128x1x1_S128x16x256))
      (Named.named (F := Ideal) Cert.KernelIdeal.κ "inv_tau_t" (φ := .f32) 0x41C80000#32) d' h w
      (fun d => x2 (ix4 (0 : Fin 1) d h w) - x0 (ix3 d (0 : Fin 1) (0 : Fin 1))) (fun d => centred_at x0 x2 d h w)).trans
    (congrArg (fun c => Cert.Dino.scaledK c (fun d => x2 (ix4 (0 : Fin 1) d h w) - x0 (ix3 d (0 : Fin 1) (0 : Fin 1))) d') inv_tau_t)

/-- The counting factor at pixel (h, w). -/
theorem pay1_at (x3 x4 : Vec Ideal S1x16x256 .f32) (h : Fin 16) (w : Fin 256) :
    k0_pay1 (F := Ideal) x3 x4 (ix2 h w)
      = Cert.Dino.vmKf (x3 (ix3 (0 : Fin 1) h w)) (x4 (ix3 (0 : Fin 1) h w)) := by
  show Scalar.select (Ideal.cmp .one (shapeCast S16x256 x3 shapeCasts_S1x16x256_S16x256 (ix2 h w)) Cert.Dino.zero)
        Cert.Dino.one Cert.Dino.zero
      * (Cert.Dino.one - shapeCast S16x256 x4 shapeCasts_S1x16x256_S16x256 (ix2 h w)) = _
  rw [cast32, cast32]
  rfl

/-- The counting-pixel block at (0, h, w). -/
theorem pay3_apply (x3 x4 : Vec Ideal S1x16x256 .f32) (h : Fin 16) (w : Fin 256) :
    k0_pay3 (F := Ideal) x3 x4 (ix3 (0 : Fin 1) h w)
      = Cert.Dino.vmKf (x3 (ix3 (0 : Fin 1) h w)) (x4 (ix3 (0 : Fin 1) h w)) :=
  (cast23 (k0_pay1 (F := Ideal) x3 x4) h w).trans (pay1_at x3 x4 h w)

/-- One term of the cross sum: probability times shifted student entry. -/
theorem term_of (v19 v36 : FVec Ideal S128x16x256 .f32) (d : Fin 128) (h : Fin 16) (w : Fin 256)
    (X Y : Fin 128 → EReal) (hX : ∀ d, v19 (ix3 d h w) = X d) (hY : ∀ d, v36 (ix3 d h w) = Y d) :
    mulf
        (mulf v36 (broadcastTo S128x16x256
          (divf (broadcast S1x16x256 (Scalar.ofBits .f32 0x3F800000#32))
            (shapeCast S1x16x256
              (multiReduction .add [0] S16x256 v36 0x00000000#32 reduces_S128x16x256_S16x256 (.inl rfl) rfl)
              shapeCasts_S16x256_S1x16x256))
          broadcasts_S1x16x256_S128x16x256))
        (subf v19 (broadcastTo S128x16x256
          (shapeCast S1x16x256
            (multiReduction .maximumf [0] S16x256 v19 0xFF800000#32 reduces_S128x16x256_S16x256 (.inl rfl) rfl)
            shapeCasts_S16x256_S1x16x256)
          broadcasts_S1x16x256_S128x16x256))
        (ix3 d h w)
      = (Y d * Ideal.div Cert.Dino.one (∑ e : Fin 128, Y e)) * Cert.Dino.shift X d := by
  show v36 (ix3 d h w) * broadcastTo S128x16x256 _ broadcasts_S1x16x256_S128x16x256 (ix3 d h w)
      * subf v19 _ (ix3 d h w) = _
  rw [recipSum_of v36 d h w Y hY, shift_of v19 d h w X hX, hY d]

/-- The masked-loss block at (0, h, w), for any block of student rows and any block of teacher exponentials:
    log ∑ exp(shifted student) less the cross sum, times the counting factor. -/
theorem pay2_of (v19 v36 : FVec Ideal S128x16x256 .f32) (x3 x4 : Vec Ideal S1x16x256 .f32) (h : Fin 16) (w : Fin 256)
    (X Y : Fin 128 → EReal) (hX : ∀ d, v19 (ix3 d h w) = X d) (hY : ∀ d, v36 (ix3 d h w) = Y d) :
    k0_pay2 (F := Ideal) v19 v36 x3 x4 (ix3 (0 : Fin 1) h w)
      = (Ideal.log (∑ d : Fin 128, Cert.Dino.expShift X d)
          - ∑ d : Fin 128, (Y d * Ideal.div Cert.Dino.one (∑ e : Fin 128, Y e)) * Cert.Dino.shift X d)
        * Cert.Dino.vmKf (x3 (ix3 (0 : Fin 1) h w)) (x4 (ix3 (0 : Fin 1) h w)) := by
  unfold k0_pay2
  refine (cast23 _ h w).trans ?_
  show (Ideal.log (multiReduction (F := Ideal) .add [0] S16x256 _ 0x00000000#32 reduces_S128x16x256_S16x256 (.inl rfl) rfl (ix2 h w))
        - multiReduction (F := Ideal) .add [0] S16x256 _ 0x00000000#32 reduces_S128x16x256_S16x256 (.inl rfl) rfl (ix2 h w))
      * k0_pay1 (F := Ideal) x3 x4 (ix2 h w) = _
  rw [pay1_at, sumD_of _ h w _ (fun d => expShift_of v19 d h w X hX),
    sumD_of _ h w _ (fun d => term_of v19 v36 d h w X Y hX hY)]

/-- The masked-loss block at (0, h, w): the loss of the pixel's student row and centred teacher row, times the
    counting factor. -/
theorem pay2_apply (x0 : Vec Ideal S128x1x1 .f32) (x1 x2 : Vec Ideal S1x128x16x256 .f32) (x3 x4 : Vec Ideal S1x16x256 .f32)
    (h : Fin 16) (w : Fin 256) :
    k0_pay2 (F := Ideal) (k0_pay4 x1) (k0_pay5 x0 x2) x3 x4 (ix3 (0 : Fin 1) h w)
      = Cert.Dino.lossK (fun d => x1 (ix4 (0 : Fin 1) d h w)) (fun d => x2 (ix4 (0 : Fin 1) d h w) - x0 (ix3 d (0 : Fin 1) (0 : Fin 1)))
          * Cert.Dino.vmKf (x3 (ix3 (0 : Fin 1) h w)) (x4 (ix3 (0 : Fin 1) h w)) :=
  pay2_of (k0_pay4 x1) (k0_pay5 x0 x2) x3 x4 h w _ _ (fun d => pay4_at x1 d h w) (fun d => pay5_at x0 x2 d h w)

end Cert.KernelIdeal.KPayload

end
-- ==== Proof.LibTypedRef.lean ====
/-
  Typed references to tensor buffers: storing and reading back.

  An operation of a function the compiler outlined reaches its buffers through typed references: it stores a value by
  transporting it to the buffer's own type and reads one by transporting it back.  Whatever the reference, a value
  stored through it and read back through it is the value: the two transports are along an equation and its inverse.
-/
import Idealize.ShloMosaic.Lib.StableHlo

namespace Idealize.ShloMosaic.StableHlo.TRef

variable {sig : RefSig} {T : BufTy} {Val : EltTy → Type}

/-- A value stored through a typed reference and read back through it is the value. -/
theorem ofBuf_toBuf (x : TRef sig T) (v : T.Contents Val) : x.ofBuf (x.toBuf v) = v := by
  obtain ⟨r, h, h2, h3⟩ := x
  subst h
  rfl

end Idealize.ShloMosaic.StableHlo.TRef
-- ==== Proof.RefValue.lean ====
/-
  The reference program's result, read at the exact values: its last stages are the segment mean of the masked
  per-pixel loss array with the per-image counts; the counts are the integer sums of the bits "image value not zero
  and not masked"; and the masked loss array is, pixel by pixel, minus the sum over the channels of the teacher's
  softmax probability times the student's log-probability, times that bit read as a number. Each stage of the
  program is read at a pixel's coordinates from the stages before it, down to the three input arrays.
-/
import proofs.«125939_j62036507623554_2_alg».proof.Proof.Spec
import proofs.«125939_j62036507623554_2_alg».proof.Proof.RefReadP

noncomputable section

namespace Cert.ReferenceIdeal.RefValue

open Cert.ReferenceIdeal Cert.ReferenceIdeal.Gen Cert.ReferenceIdeal.ReadP Idealize.ShloMosaic Idealize.ShloMosaic.TcCoe Idealize.SL.Sem Idealize.ShloMosaic.StableHlo Idealize.ShloMosaic.ValueIdx

local macro "ax1" : tactic => `(tactic| exact funext fun a => Fin.ext (by match a with | ⟨0, _⟩ => rfl))
local macro "ax3" : tactic => `(tactic| exact funext fun a => Fin.ext (by match a with | ⟨0, _⟩ => rfl | ⟨1, _⟩ => rfl | ⟨2, _⟩ => rfl))
local macro "ax4" : tactic => `(tactic| exact funext fun a => Fin.ext (by match a with | ⟨0, _⟩ => rfl | ⟨1, _⟩ => rfl | ⟨2, _⟩ => rfl | ⟨3, _⟩ => rfl))

/-! ## The segment-mean tail and the counts -/

/-- The stages after the masked losses and the counts are the segment mean. -/
theorem tail_eq (x0 x1 : (⟨S8x128x256x256, .f32⟩ : BufTy).Contents (Elt Ideal)) (x2 : (⟨S128, .f32⟩ : BufTy).Contents (Elt Ideal))
    (x3 : (⟨S8x256x256, .i1⟩ : BufTy).Contents (Elt Ideal)) (x4 : (⟨S8x1x256x256, .f32⟩ : BufTy).Contents (Elt Ideal)) :
    val_main_v64 (F := Ideal) x0 x1 x2 x3 x4
      = Cert.Dino.tail reducesTo_S8x256x256_S8_d1_2 h_S_ bcast_S_S8 reducesTo_S8_S_d0
          (val_main_v49 (F := Ideal) x0 x1 x2 x3 x4) (val_main_v7 (F := Ideal) x3 x4) := by
  unfold val_main_v64 val_main_v63 val_main_v62 val_main_v61 val_main_v60 val_main_v59 val_main_v58 val_main_v57 val_main_v56
    val_main_v55 val_main_v54 val_main_v53 val_main_v52 val_main_v51 val_main_v50 val_main_cst_18 val_main_cst_17 val_main_cst_16
    val_main_cst_15 val_main_cst_14 val_main_cst_13 val_main_cst_12 val_main_cst_11 val_main_cst_10 Cert.Dino.tail
  rfl

/-- The reshaped image value at a pixel is the image's value there. -/
theorem idx_v0 (i : S8x256x256.Idx) : idx_main_v0 i = ix4 (i 0) 0 (i 1) (i 2) := by
  funext a
  have h0 : (i 0).val < 8 := (i 0).isLt
  have h1 : (i 1).val < 256 := (i 1).isLt
  have h2 : (i 2).val < 256 := (i 2).isLt
  match a with
  | ⟨0, _⟩ => exact Fin.ext (by show (((i 0).val * 256 + (i 1).val) * 256 + (i 2).val) / 65536 = (i 0).val; omega)
  | ⟨1, _⟩ => exact Fin.ext rfl
  | ⟨2, _⟩ => exact Fin.ext (by show (((i 0).val * 256 + (i 1).val) * 256 + (i 2).val) / 256 % 256 = (i 1).val; omega)
  | ⟨3, _⟩ => exact Fin.ext (by show (((i 0).val * 256 + (i 1).val) * 256 + (i 2).val) % 256 = (i 2).val; omega)

/-- The bit "image value not zero and not masked", as the reference computes it. -/
theorem v4_eq (x3 : (⟨S8x256x256, .i1⟩ : BufTy).Contents (Elt Ideal)) (x4 : (⟨S8x1x256x256, .f32⟩ : BufTy).Contents (Elt Ideal)) :
    val_main_v4 (F := Ideal) x3 x4 = Cert.Dino.validArr x3 x4 := by
  funext i
  rewrite [val_main_v4_apply, val_main_v2_apply, val_main_v3_apply, val_main_v0_apply, val_main_v1_apply, idx_v0]
  rfl

/-- The counts: the integer sum of the counting bits, read as a number. -/
theorem counts_eq (x3 : (⟨S8x256x256, .i1⟩ : BufTy).Contents (Elt Ideal)) (x4 : (⟨S8x1x256x256, .f32⟩ : BufTy).Contents (Elt Ideal)) :
    val_main_v7 (F := Ideal) x3 x4
      = Cert.Dino.countsR reducesTo_S8x256x256_S8_d1_2 h_S_ natLt_1_32 (Cert.Dino.validArr x3 x4) := by
  unfold val_main_v7 val_main_v6 val_main_v5 val_main_c Cert.Dino.countsR
  rewrite [v4_eq]; rfl

/-! ## The layout operations' index maps at a pixel's coordinates -/

section Indices
variable (b : Fin 8) (h w : Fin 256) (d : Fin 128)
theorem idx_v14 : idx_main_v14 (ix3 b h w) d = ix4 b h w d := by ax4
theorem idx_v22 : idx_main_v22 (ix3 b h w) d = ix4 b h w d := by ax4
theorem idx_v38 : idx_main_v38 (ix3 b h w) d = ix4 b h w d := by ax4
theorem idx_c0v7 : idx_main_call0_v7 (ix3 b h w) d = ix4 b h w d := by ax4
theorem idx_v46 : idx_main_v46 (ix3 b h w) d = ix4 b h w d := by ax4
theorem idx_v15 : idx_main_v15 (ix4 b h w (0 : Fin 1)) = ix3 b h w := by ax3
theorem idx_v23 : idx_main_v23 (ix4 b h w (0 : Fin 1)) = ix3 b h w := by ax3
theorem idx_v34 : idx_main_v34 (ix4 b h w (0 : Fin 1)) = ix3 b h w := by ax3
theorem idx_v39 : idx_main_v39 (ix4 b h w (0 : Fin 1)) = ix3 b h w := by ax3
theorem idx_c0v3 : idx_main_call0_v3 (ix4 b h w (0 : Fin 1)) = ix3 b h w := by ax3
theorem idx_c0v8 : idx_main_call0_v8 (ix4 b h w (0 : Fin 1)) = ix3 b h w := by ax3
theorem idx_v19 : idx_main_v19 (ix4 b h w d) = ix4 b h w (0 : Fin 1) := by ax4
theorem idx_v27 : idx_main_v27 (ix4 b h w d) = ix4 b h w (0 : Fin 1) := by ax4
theorem idx_v35 : idx_main_v35 (ix4 b h w d) = ix4 b h w (0 : Fin 1) := by ax4
theorem idx_v40 : idx_main_v40 (ix4 b h w d) = ix4 b h w (0 : Fin 1) := by ax4
theorem idx_c0v4 : idx_main_call0_v4 (ix4 b h w d) = ix4 b h w (0 : Fin 1) := by ax4
theorem idx_c0v10 : idx_main_call0_v10 (ix4 b h w d) = ix4 b h w (0 : Fin 1) := by ax4
theorem idx_v8 : idx_main_v8 (ix4 b h w d) = ix4 b d h w := by ax4
theorem idx_v9 : idx_main_v9 (ix4 b h w d) = ix4 b d h w := by ax4
theorem idx_v11 : idx_main_v11 (ix4 b h w d) = ix4 (0 : Fin 1) (0 : Fin 1) (0 : Fin 1) d := by ax4
theorem idx_v10 : idx_main_v10 (ix4 (0 : Fin 1) (0 : Fin 1) (0 : Fin 1) d) = ix1 d := by ax1

/-- The channel axis is the one the row reductions drop. -/
theorem red3 : S8x256x256x128.Reduces [3] S8x256x256 := by decide
end Indices

/-! ## Constants and the row maximum -/

/-- The pattern of minus infinity denotes the bottom element. -/
theorem bot_cst : Ideal.ofBits .f32 0xFF800000#32 = (⊥ : EReal) := by simp [Ideal.ofBits, Ideal.ieee]

/-- A maximum-reduce over the channel axis from minus infinity is the row's maximum. -/
theorem rowmax_at (y : (⟨S8x256x256x128, .f32⟩ : BufTy).Contents (Elt Ideal)) (c : (⟨S_, .f32⟩ : BufTy).Contents (Elt Ideal))
    (hc : c (Shape.Idx.first h_S_) = (⊥ : EReal)) (b : Fin 8) (h w : Fin 256) :
    Host.reduce (FloatOps.maximumf (F := Ideal) (φ := .f32)) y c reducesTo_S8x256x256x128_S8x256x256_d3 h_S_ (ix3 b h w)
      = Cert.Dino.rowMax (fun k => y (ix4 b h w k)) := by
  rewrite [Host.reduce_eq_fold_single (FloatOps.maximumf (F := Ideal) (φ := .f32)) y c reducesTo_S8x256x256x128_S8x256x256_d3 red3 h_S_ (ix3 b h w), hc]
  show (Finset.univ : Finset (Fin 128)).fold max (⊥ : EReal) (fun k => y (red3.lift (ix3 b h w) k))
    = (Finset.univ : Finset (Fin 128)).fold max (⊥ : EReal) (fun k => y (ix4 b h w k))
  refine Finset.fold_congr fun k _ => ?_
  exact congrArg y (funext fun a => Fin.ext (by match a with | ⟨0, _⟩ => rfl | ⟨1, _⟩ => rfl | ⟨2, _⟩ => rfl | ⟨3, _⟩ => rfl))

/-! ## The student row at a pixel -/

section Pixel
variable (x0 x1 : (⟨S8x128x256x256, .f32⟩ : BufTy).Contents (Elt Ideal)) (x2 : (⟨S128, .f32⟩ : BufTy).Contents (Elt Ideal))
  (b : Fin 8) (h w : Fin 256)

theorem v8_at (d : Fin 128) : val_main_v8 (F := Ideal) x0 (ix4 b h w d) = (Cert.Dino.rowS x0 b h w) d := by
  rewrite [val_main_v8_apply, idx_v8]; rfl

theorem v14_at : val_main_v14 (F := Ideal) x0 (ix3 b h w) = ∑ d : Fin 128, (Cert.Dino.rowS x0 b h w) d * (Cert.Dino.rowS x0 b h w) d := by
  rewrite [val_main_v14_apply, show val_main_cst_0 (F := Ideal) (Shape.Idx.first h_S_) = (0 : EReal) from Ideal.ofBits_zero_f32, zero_add]
  refine Finset.sum_congr rfl fun d _ => ?_
  rewrite [idx_v14, val_main_v13_apply, v8_at]; rfl

theorem v18_at : val_main_v18 (F := Ideal) x0 (ix4 b h w (0 : Fin 1)) = Cert.Dino.nrm (Cert.Dino.rowS x0 b h w) := by
  rewrite [val_main_v18_apply, val_main_v16_apply, val_main_v15_apply, idx_v15, v14_at, val_main_v17_apply]; rfl

theorem v20_at (d : Fin 128) : val_main_v20 (F := Ideal) x0 (ix4 b h w d) = Ideal.div ((Cert.Dino.rowS x0 b h w) d) (Cert.Dino.nrm (Cert.Dino.rowS x0 b h w)) := by
  rewrite [val_main_v20_apply, v8_at, val_main_v19_apply, idx_v19, v18_at]; rfl

theorem v43_at (d : Fin 128) : val_main_v43 (F := Ideal) x0 (ix4 b h w d) = (Cert.Dino.scaledR Cert.Dino.tauS (Cert.Dino.rowS x0 b h w)) d := by
  rewrite [val_main_v43_apply, v20_at, val_main_v42_apply]; rfl

theorem c0v0_at : val_main_call0_v0 (F := Ideal) x0 (ix3 b h w) = Cert.Dino.rowMax (Cert.Dino.scaledR Cert.Dino.tauS (Cert.Dino.rowS x0 b h w)) := by
  unfold val_main_call0_v0
  exact (rowmax_at _ _ (show val_main_call0_cst (F := Ideal) (Shape.Idx.first h_S_) = (⊥ : EReal) from bot_cst) b h w).trans
    (congrArg Cert.Dino.rowMax (funext fun k => v43_at x0 b h w k))

theorem c0v2_at : val_main_call0_v2 (F := Ideal) x0 (ix3 b h w) = Cert.Dino.rowMax (Cert.Dino.scaledR Cert.Dino.tauS (Cert.Dino.rowS x0 b h w)) := by
  rewrite [val_main_call0_v2_apply, c0v0_at, val_main_call0_v1_apply]
  show max (Ideal.ofBits .f32 0xFF800000#32) _ = _
  rewrite [bot_cst]; exact max_bot_left _

theorem c0v5_at (d : Fin 128) : val_main_call0_v5 (F := Ideal) x0 (ix4 b h w d) = Cert.Dino.shift (Cert.Dino.scaledR Cert.Dino.tauS (Cert.Dino.rowS x0 b h w)) d := by
  rewrite [val_main_call0_v5_apply, v43_at, val_main_call0_v4_apply, idx_c0v4, val_main_call0_v3_apply, idx_c0v3, c0v2_at]; rfl

theorem c0v6_at (d : Fin 128) : val_main_call0_v6 (F := Ideal) x0 (ix4 b h w d) = Cert.Dino.expShift (Cert.Dino.scaledR Cert.Dino.tauS (Cert.Dino.rowS x0 b h w)) d := by
  rewrite [val_main_call0_v6_apply, c0v5_at]; rfl

theorem c0v7_at : val_main_call0_v7 (F := Ideal) x0 (ix3 b h w) = ∑ e : Fin 128, Cert.Dino.expShift (Cert.Dino.scaledR Cert.Dino.tauS (Cert.Dino.rowS x0 b h w)) e := by
  rewrite [val_main_call0_v7_apply, show val_main_call0_cst_1 (F := Ideal) (Shape.Idx.first h_S_) = (0 : EReal) from Ideal.ofBits_zero_f32, zero_add]
  refine Finset.sum_congr rfl fun e _ => ?_
  rewrite [idx_c0v7, c0v6_at]; rfl

theorem c0v10_at (d : Fin 128) :
    val_main_call0_v10 (F := Ideal) x0 (ix4 b h w d) = Ideal.log (∑ e : Fin 128, Cert.Dino.expShift (Cert.Dino.scaledR Cert.Dino.tauS (Cert.Dino.rowS x0 b h w)) e) := by
  rewrite [val_main_call0_v10_apply, idx_c0v10, val_main_call0_v9_apply, val_main_call0_v8_apply, idx_c0v8, c0v7_at]; rfl

theorem v44_at (d : Fin 128) :
    val_main_v44 (F := Ideal) x0 (ix4 b h w d)
      = Cert.Dino.shift (Cert.Dino.scaledR Cert.Dino.tauS (Cert.Dino.rowS x0 b h w)) d - Ideal.log (∑ e : Fin 128, Cert.Dino.expShift (Cert.Dino.scaledR Cert.Dino.tauS (Cert.Dino.rowS x0 b h w)) e) := by
  rewrite [val_main_v44_apply, c0v5_at, c0v10_at]; rfl

/-! ## The centred teacher row at a pixel -/

theorem v12_at (d : Fin 128) : val_main_v12 (F := Ideal) x1 x2 (ix4 b h w d) = (Cert.Dino.rowT x1 x2 b h w) d := by
  rewrite [val_main_v12_apply, val_main_v9_apply, idx_v9, val_main_v11_apply, idx_v11, val_main_v10_apply, idx_v10]; rfl

theorem v22_at : val_main_v22 (F := Ideal) x1 x2 (ix3 b h w) = ∑ d : Fin 128, (Cert.Dino.rowT x1 x2 b h w) d * (Cert.Dino.rowT x1 x2 b h w) d := by
  rewrite [val_main_v22_apply, show val_main_cst_2 (F := Ideal) (Shape.Idx.first h_S_) = (0 : EReal) from Ideal.ofBits_zero_f32, zero_add]
  refine Finset.sum_congr rfl fun d _ => ?_
  rewrite [idx_v22, val_main_v21_apply, v12_at]; rfl

theorem v26_at : val_main_v26 (F := Ideal) x1 x2 (ix4 b h w (0 : Fin 1)) = Cert.Dino.nrm (Cert.Dino.rowT x1 x2 b h w) := by
  rewrite [val_main_v26_apply, val_main_v24_apply, val_main_v23_apply, idx_v23, v22_at, val_main_v25_apply]; rfl

theorem v28_at (d : Fin 128) : val_main_v28 (F := Ideal) x1 x2 (ix4 b h w d) = Ideal.div ((Cert.Dino.rowT x1 x2 b h w) d) (Cert.Dino.nrm (Cert.Dino.rowT x1 x2 b h w)) := by
  rewrite [val_main_v28_apply, v12_at, val_main_v27_apply, idx_v27, v26_at]; rfl

theorem v30_at (d : Fin 128) : val_main_v30 (F := Ideal) x1 x2 (ix4 b h w d) = (Cert.Dino.scaledR Cert.Dino.tauT (Cert.Dino.rowT x1 x2 b h w)) d := by
  rewrite [val_main_v30_apply, v28_at, val_main_v29_apply]; rfl

theorem v31_at : val_main_v31 (F := Ideal) x1 x2 (ix3 b h w) = Cert.Dino.rowMax (Cert.Dino.scaledR Cert.Dino.tauT (Cert.Dino.rowT x1 x2 b h w)) := by
  unfold val_main_v31
  exact (rowmax_at _ _ (show val_main_cst_5 (F := Ideal) (Shape.Idx.first h_S_) = (⊥ : EReal) from bot_cst) b h w).trans
    (congrArg Cert.Dino.rowMax (funext fun k => v30_at x1 x2 b h w k))

theorem v33_at : val_main_v33 (F := Ideal) x1 x2 (ix3 b h w) = Cert.Dino.rowMax (Cert.Dino.scaledR Cert.Dino.tauT (Cert.Dino.rowT x1 x2 b h w)) := by
  rewrite [val_main_v33_apply, v31_at, val_main_v32_apply]
  show max (Ideal.ofBits .f32 0xFF800000#32) _ = _
  rewrite [bot_cst]; exact max_bot_left _

theorem v36_at (d : Fin 128) : val_main_v36 (F := Ideal) x1 x2 (ix4 b h w d) = Cert.Dino.shift (Cert.Dino.scaledR Cert.Dino.tauT (Cert.Dino.rowT x1 x2 b h w)) d := by
  rewrite [val_main_v36_apply, v30_at, val_main_v35_apply, idx_v35, val_main_v34_apply, idx_v34, v33_at]; rfl

theorem v37_at (d : Fin 128) : val_main_v37 (F := Ideal) x1 x2 (ix4 b h w d) = Cert.Dino.expShift (Cert.Dino.scaledR Cert.Dino.tauT (Cert.Dino.rowT x1 x2 b h w)) d := by
  rewrite [val_main_v37_apply, v36_at]; rfl

theorem v38_at : val_main_v38 (F := Ideal) x1 x2 (ix3 b h w) = ∑ e : Fin 128, Cert.Dino.expShift (Cert.Dino.scaledR Cert.Dino.tauT (Cert.Dino.rowT x1 x2 b h w)) e := by
  rewrite [val_main_v38_apply, show val_main_cst_7 (F := Ideal) (Shape.Idx.first h_S_) = (0 : EReal) from Ideal.ofBits_zero_f32, zero_add]
  refine Finset.sum_congr rfl fun e _ => ?_
  rewrite [idx_v38, v37_at]; rfl

theorem v41_at (d : Fin 128) :
    val_main_v41 (F := Ideal) x1 x2 (ix4 b h w d)
      = Ideal.div (Cert.Dino.expShift (Cert.Dino.scaledR Cert.Dino.tauT (Cert.Dino.rowT x1 x2 b h w)) d) (∑ e : Fin 128, Cert.Dino.expShift (Cert.Dino.scaledR Cert.Dino.tauT (Cert.Dino.rowT x1 x2 b h w)) e) := by
  rewrite [val_main_v41_apply, v37_at, val_main_v40_apply, idx_v40, val_main_v39_apply, idx_v39, v38_at]; rfl

/-! ## The loss of a pixel -/

theorem v46_at :
    val_main_v46 (F := Ideal) x0 x1 x2 (ix3 b h w)
      = ∑ d : Fin 128, Ideal.div (Cert.Dino.expShift (Cert.Dino.scaledR Cert.Dino.tauT (Cert.Dino.rowT x1 x2 b h w)) d) (∑ e : Fin 128, Cert.Dino.expShift (Cert.Dino.scaledR Cert.Dino.tauT (Cert.Dino.rowT x1 x2 b h w)) e)
          * (Cert.Dino.shift (Cert.Dino.scaledR Cert.Dino.tauS (Cert.Dino.rowS x0 b h w)) d - Ideal.log (∑ e : Fin 128, Cert.Dino.expShift (Cert.Dino.scaledR Cert.Dino.tauS (Cert.Dino.rowS x0 b h w)) e)) := by
  rewrite [val_main_v46_apply, show val_main_cst_9 (F := Ideal) (Shape.Idx.first h_S_) = (0 : EReal) from Ideal.ofBits_zero_f32, zero_add]
  refine Finset.sum_congr rfl fun d _ => ?_
  rewrite [idx_v46, val_main_v45_apply, v41_at, v44_at]; rfl

end Pixel

/-! ## The masked losses and the result -/

/-- The reference's masked per-pixel loss array is the second arrangement's. -/
theorem masked_eq (x0 x1 : (⟨S8x128x256x256, .f32⟩ : BufTy).Contents (Elt Ideal)) (x2 : (⟨S128, .f32⟩ : BufTy).Contents (Elt Ideal))
    (x3 : (⟨S8x256x256, .i1⟩ : BufTy).Contents (Elt Ideal)) (x4 : (⟨S8x1x256x256, .f32⟩ : BufTy).Contents (Elt Ideal)) :
    val_main_v49 (F := Ideal) x0 x1 x2 x3 x4 = Cert.Dino.maskedR x0 x1 x2 x3 x4 := by
  funext i
  obtain ⟨b, h, w, rfl⟩ : ∃ (b : Fin 8) (h w : Fin 256), i = ix3 b h w := ⟨i 0, i 1, i 2, eq_ix3 i⟩
  rewrite [val_main_v49_apply, val_main_v47_apply, v46_at, val_main_v48_apply, v4_eq]
  rfl

/-- The reference's result is the segment mean of the masked per-pixel losses (second arrangement) with the integer counts. -/
theorem result_eq (x0 x1 : (⟨S8x128x256x256, .f32⟩ : BufTy).Contents (Elt Ideal)) (x2 : (⟨S128, .f32⟩ : BufTy).Contents (Elt Ideal))
    (x3 : (⟨S8x256x256, .i1⟩ : BufTy).Contents (Elt Ideal)) (x4 : (⟨S8x1x256x256, .f32⟩ : BufTy).Contents (Elt Ideal)) :
    val_main_v64 (F := Ideal) x0 x1 x2 x3 x4
      = Cert.Dino.tail reducesTo_S8x256x256_S8_d1_2 h_S_ bcast_S_S8 reducesTo_S8_S_d0
          (Cert.Dino.maskedR x0 x1 x2 x3 x4)
          (Cert.Dino.countsR reducesTo_S8x256x256_S8_d1_2 h_S_ natLt_1_32 (Cert.Dino.validArr x3 x4)) := by
  rewrite [tail_eq, masked_eq, counts_eq]; rfl

end Cert.ReferenceIdeal.RefValue

end
-- ==== Proof.LibMaskedSoftmaxRows.lean ====
/-
  Rows of a masked softmax and weighted sums over key chunks, on the extended reals, for any extents.

  A row of scores holds real numbers and, at masked positions, minus infinity. Its maximum is described by what a
  maximum does (it bounds every entry and is one of them), not by how it was folded, so the facts apply to a lane
  reduction and to a host reduce alike. When no entry is plus infinity and some entry is real, the maximum is a real
  number, every shifted exponential is a real number between 0 and 1, a masked entry's is 0, the row's sum of them is a
  real number at least 1, and a masked entry's quotient by that sum is 0.

  A sum over all keys of probability times value may leave out whole chunks of keys on which the probability vanishes:
  that is how a kernel that skips the chunks lying wholly after its query tile agrees with a product over every key.

  A scale that is the exact reciprocal of a divisor turns a product into the quotient, at the infinities too.
-/
import Idealize.ShloMosaic.PureOps.Ideal

noncomputable section

namespace Cert.Lib.MaskedSoftmaxRows

open Idealize.ShloMosaic

/-! ## A reciprocal scale against a divisor -/

/-- Multiplying by the fraction `q / p` is dividing by `p / q`, for every extended real. -/
theorem mul_recip_eq_div (x : EReal) {p q : ℝ} (hp : p ≠ 0) (hq : q ≠ 0) :
    x * ((q / p : ℝ) : EReal) = Ideal.div x ((p / q : ℝ) : EReal) := by
  rw [Ideal.div_coe (div_ne_zero hp hq), one_div_div]

/-! ## Finite sums of real numbers inside the extended reals -/

/-- The extended real of a finite real sum is the sum of the extended reals. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## One row -/

/-- Minus infinity less anything is minus infinity. -/
theorem bot_sub' (m : EReal) : (⊥ : EReal) - m = ⊥ := by
  rw [sub_eq_add_neg, EReal.bot_add]

/-- A masked entry's shifted exponential is zero, whatever the shift. -/
theorem exp_masked (m : EReal) : Ideal.exp ((⊥ : EReal) - m) = 0 := by
  rw [bot_sub', Ideal.exp_bot]

/-- Zero divided by anything but zero is zero. -/
theorem div_zero_left {l : EReal} (hl : l ≠ 0) : Ideal.div 0 l = 0 := by
  rw [Ideal.div, if_neg hl, zero_mul]

/-- What a maximum of a row does: it bounds every entry and is one of them. -/
structure IsRowMax {ι : Type*} (s : ι → EReal) (m : EReal) : Prop where
  le : ∀ j, s j ≤ m
  attained : ∃ j, s j = m

variable {ι : Type*} {s : ι → EReal} {m : EReal}

/-- With no entry plus infinity and some entry real, the row's maximum is a real number. -/
theorem IsRowMax.real (h : IsRowMax s m) (htop : ∀ j, s j ≠ ⊤) (hsome : ∃ j, s j ≠ ⊥) : ∃ r : ℝ, m = (r : EReal) := by
  obtain ⟨j0, hj0⟩ := h.attained
  obtain ⟨j1, hj1⟩ := hsome
  have hmt : m ≠ ⊤ := hj0 ▸ htop j0
  have hmb : m ≠ ⊥ := fun hb => hj1 (le_bot_iff.mp (hb ▸ h.le j1))
  exact ⟨m.toReal, (EReal.coe_toReal hmt hmb).symm⟩

/-- An entry that is not plus infinity, shifted by a real bound of it: its exponential is a real number in [0, 1]. -/
theorem exp_shift_real {x : EReal} {r : ℝ} (hx : x ≠ ⊤) (hle : x ≤ (r : EReal)) :
    ∃ e : ℝ, Ideal.exp (x - (r : EReal)) = (e : EReal) ∧ 0 ≤ e ∧ e ≤ 1 := by
  induction x using EReal.rec with
  | bot => exact ⟨0, by rw [exp_masked]; rfl, le_refl _, zero_le_one⟩
  | top => exact absurd rfl hx
  | coe a =>
    refine ⟨Real.exp (a - r), ?_, (Real.exp_pos _).le, ?_⟩
    · rw [← EReal.coe_sub, Ideal.exp_coe]
    · exact Real.exp_le_one_iff.mpr (sub_nonpos.mpr (EReal.coe_le_coe_iff.mp hle))

/-- The row's sum of shifted exponentials is a real number at least 1 (the maximum's own term is 1). -/
theorem IsRowMax.denom_real [Fintype ι] {r : ℝ} (h : IsRowMax s (r : EReal)) (htop : ∀ j, s j ≠ ⊤) :
    ∃ l : ℝ, (∑ j, Ideal.exp (s j - (r : EReal))) = (l : EReal) ∧ 1 ≤ l := by
  classical
  choose e he using fun j => exp_shift_real (htop j) (h.le j)
  refine ⟨∑ j, e j, ?_, ?_⟩
  · rw [coe_sum]; exact Finset.sum_congr rfl fun j _ => (he j).1
  · obtain ⟨j0, hj0⟩ := h.attained
    have h1 : e j0 = 1 := by
      have := (he j0).1
      rw [hj0, ← EReal.coe_sub, sub_self, Ideal.exp_coe, Real.exp_zero] at this
      exact (EReal.coe_eq_coe_iff.mp this).symm
    calc (1 : ℝ) = e j0 := h1.symm
      _ ≤ ∑ j, e j := Finset.single_le_sum (fun j _ => (he j).2.1) (Finset.mem_univ j0)

/-- A real number at least 1 is not zero as an extended real. -/
theorem coe_ne_zero_of_one_le {l : ℝ} (hl : 1 ≤ l) : (l : EReal) ≠ 0 := by
  intro h
  have : l = 0 := by exact_mod_cast h
  linarith

/-- A masked entry's probability is zero: its exponential is zero and the denominator is not. -/
theorem prob_masked (m : EReal) {l : EReal} (hl : l ≠ 0) : Ideal.div (Ideal.exp ((⊥ : EReal) - m)) l = 0 := by
  rw [exp_masked, div_zero_left hl]

/-! ## A maximum taken as a fold -/

/-- A fold of `max` over a finite set either stays at its start or is one of the entries folded in. -/
theorem fold_max_eq_or {ι : Type*} [DecidableEq ι] (s : ι → EReal) (b : EReal) (t : Finset ι) :
    t.fold max b s = b ∨ ∃ j ∈ t, s j = t.fold max b s := by
  induction t using Finset.induction_on with
  | empty => exact Or.inl (Finset.fold_empty)
  | insert a t ha ih =>
    rw [Finset.fold_insert ha]
    rcases max_choice (s a) (t.fold max b s) with h | h
    · exact Or.inr ⟨a, Finset.mem_insert_self a t, h.symm⟩
    · rw [h]
      rcases ih with ih | ⟨j, hj, hje⟩
      · exact Or.inl ih
      · exact Or.inr ⟨j, Finset.mem_insert_of_mem hj, hje⟩

/-- The fold of `max` from minus infinity over every position of a nonempty row is a maximum of the row: the form both a
    lane reduction and a host reduce take when read at one row. -/
theorem isRowMax_fold_max {ι : Type*} [Fintype ι] [Nonempty ι] (s : ι → EReal) :
    IsRowMax s ((Finset.univ : Finset ι).fold max ⊥ s) := by
  classical
  refine ⟨fun j => (Finset.le_fold_max _).mpr (Or.inr ⟨j, Finset.mem_univ j, le_refl _⟩), ?_⟩
  rcases fold_max_eq_or s ⊥ Finset.univ with h | ⟨j, _, hj⟩
  · obtain ⟨j⟩ := ‹Nonempty ι›
    refine ⟨j, ?_⟩
    have : s j ≤ ⊥ := h ▸ (Finset.le_fold_max _).mpr (Or.inr ⟨j, Finset.mem_univ j, le_refl _⟩)
    rw [h]; exact le_bot_iff.mp this
  · exact ⟨j, hj⟩

/-! ## Weighted sums over key chunks -/

/-- Keys arranged in chunks: a sum over all keys of probability times value is the sum over the visited chunks alone,
    when the probability vanishes on every key of every other chunk. -/
theorem sum_visited_chunks {κ β γ : Type*} [Fintype κ] [Fintype β] [Fintype γ] [DecidableEq κ] (e : κ × β ≃ γ)
    (p v : γ → EReal) (visited : Finset κ) (hz : ∀ k, k ∉ visited → ∀ j, p (e (k, j)) = 0) :
    ∑ i, p i * v i = ∑ k ∈ visited, ∑ j, p (e (k, j)) * v (e (k, j)) :=
  calc ∑ i, p i * v i = ∑ x : κ × β, p (e x) * v (e x) := (Equiv.sum_comp e fun i => p i * v i).symm
    _ = ∑ k, ∑ j, p (e (k, j)) * v (e (k, j)) := Fintype.sum_prod_type _
    _ = ∑ k ∈ visited, ∑ j, p (e (k, j)) * v (e (k, j)) :=
      (Finset.sum_subset (Finset.subset_univ _) fun k _ hk =>
        Finset.sum_eq_zero fun j _ => by rw [hz k hk j, zero_mul]).symm

/-- A chunk that starts at or after the end of a query tile lies wholly after every query of the tile: with tiles of
    `tq` queries and chunks of `tk` keys, every key `k * tk + j` of chunk `k` comes after every query `r` of tile `qi`. -/
theorem chunk_after_tile {tq tk qi k r j : ℕ} (hr : r < (qi + 1) * tq) (hk : (qi + 1) * tq ≤ k * tk) :
    r < k * tk + j + 1 :=
  Nat.lt_succ_of_le (Nat.le_trans (Nat.le_of_lt hr) (Nat.le_trans hk (Nat.le_add_right _ _)))

end Cert.Lib.MaskedSoftmaxRows

end
-- ==== Proof.LibERealFinite.lean ====
/-
  General facts about extended reals that are real numbers, for proofs at the ideal instance that pass to the reals:
  the coercion of a finite sum, a quotient and a square root of reals, a comparison-driven selection as a conditional,
  and that an extended real whose magnitude compares below +∞ is a real.
-/
import Idealize.ShloMosaic.PureOps.Ideal
import Idealize.ShloMosaic.PureOps.Ideal.Laws

noncomputable section

namespace Cert.LibERealFinite

open Idealize.ShloMosaic
open scoped BigOperators

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The ideal quotient of two reals, the divisor not zero, is the real quotient. -/
theorem div_coe_coe (x : ℝ) {y : ℝ} (h : y ≠ 0) : Ideal.div (x : EReal) (y : EReal) = ((x / y : ℝ) : EReal) := by
  rw [Ideal.div_coe h, ← EReal.coe_mul]; congr 1; field_simp

/-- The ideal square root of a nonnegative real is the real square root. -/
theorem sqrt_coe_nonneg {r : ℝ} (h : 0 ≤ r) : Ideal.sqrt (r : EReal) = (Real.sqrt r : EReal) := by
  rw [Ideal.sqrt_coe, if_neg (not_lt.mpr h)]

/-- Selecting by an ordered less-than comparison of extended reals is the conditional on the order. -/
theorem select_olt {α : Type} (a b : EReal) (x y : α) :
    Scalar.select (Ideal.cmp .olt a b) x y = if a < b then x else y := by
  by_cases h : a < b <;> simp [Scalar.select, Ideal.cmp, h]

/-- An extended real whose magnitude compares below the +∞ word of f32 is a real number. -/
theorem real_of_abs_lt (x : EReal) (h : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

end Cert.LibERealFinite

end
-- ==== Proof.RowMath.lean ====
/-
  The pixel loss of the self-distillation kernel on rows of real numbers, and the bit that says a pixel counts.

  A row of 128 real numbers has a Euclidean length that is a nonnegative real, and clamped from below by the
  positive constant epsilon it is a positive real M. Multiplying an entry by (1 / M) times the exact reciprocal
  q / p of a temperature p / q gives the same real number as dividing it by M and then by p / q; so the two ways of
  scaling a row give one row z of real numbers. The maximum m of a row of real numbers is a real number, every
  shifted entry z_d - m and its exponential are real numbers, and the sum S of the exponentials is a positive real,
  whose logarithm L is therefore the real logarithm. With e_d the teacher's exponentials, T > 0 their sum and
  sh_d the student's shifted entries, the first arrangement of the loss is L - ∑ e_d (1 / T) sh_d and the second is
  -∑ (e_d / T) (sh_d - L); they agree because ∑ e_d / T = 1.

  A pixel counts when its image value is not zero and its mask bit is 0: as the product of a 0-or-1 number with
  one less the mask bit read as a number, and as the conjunction of two bits read as a number, four cases.
-/
import proofs.«125939_j62036507623554_2_alg».proof.Proof.Spec
import proofs.«125939_j62036507623554_2_alg».proof.Proof.LibMaskedSoftmaxRows
import proofs.«125939_j62036507623554_2_alg».proof.Proof.LibERealFinite

noncomputable section

namespace Cert.Dino

open Idealize.ShloMosaic
open Cert.Lib.MaskedSoftmaxRows (coe_sum isRowMax_fold_max IsRowMax)

/-! ## The constants as real numbers -/

/-- The clamp is the positive dyadic rational 9223372 / 2^63. -/
theorem eps_eq : eps = ((9223372 / 9223372036854775808 : ℝ) : EReal) := by
  unfold eps
  simp [Ideal.ofBits, Ideal.ieee, -EReal.coe_mul]; norm_num

theorem one_eq : one = 1 := by
  unfold one
  simp [Ideal.ofBits, Ideal.ieee, -EReal.coe_mul]; norm_num

theorem zero_eq : zero = 0 := by
  unfold zero
  simp [Ideal.ofBits, Ideal.ieee]

/-- The student temperature is 13421773 / 2^27. -/
theorem tauS_eq : tauS = ((13421773 / 134217728 : ℝ) : EReal) := by
  unfold tauS
  simp [Ideal.ofBits, Ideal.ieee, -EReal.coe_mul]; norm_num

/-- The teacher temperature is 10737418 / 2^28 = 5368709 / 2^27. -/
theorem tauT_eq : tauT = ((5368709 / 134217728 : ℝ) : EReal) := by
  unfold tauT
  simp [Ideal.ofBits, Ideal.ieee, -EReal.coe_mul]; norm_num

/-! ## The clamped length and the two scalings of a row of real numbers -/

/-- The clamped length of a row of real numbers is a positive real number. -/
theorem nrm_real (a : Fin 128 → ℝ) : ∃ M : ℝ, 0 < M ∧ nrm (fun d => (a d : EReal)) = (M : EReal) := by
  have hsum : (∑ d : Fin 128, (a d : EReal) * (a d : EReal)) = ((∑ d : Fin 128, a d * a d : ℝ) : EReal) := by
    rw [coe_sum]; exact Finset.sum_congr rfl fun d _ => (EReal.coe_mul _ _).symm
  have hnn : 0 ≤ ∑ d : Fin 128, a d * a d := Finset.sum_nonneg fun d _ => mul_self_nonneg _
  refine ⟨max (Real.sqrt (∑ d : Fin 128, a d * a d)) (9223372 / 9223372036854775808), ?_, ?_⟩
  · exact lt_max_of_lt_right (by norm_num)
  · unfold nrm
    rw [hsum, Cert.LibERealFinite.sqrt_coe_nonneg hnn, eps_eq]
    exact (EReal.coe_strictMono.monotone.map_max).symm

/-- On a row of real numbers, multiplying by the reciprocal of the length times q / p and dividing by the length and
    then by p / q give one and the same row of real numbers. -/
theorem scaled_real (a : Fin 128 → ℝ) {p q : ℝ} (hp : p ≠ 0) (hq : q ≠ 0) :
    ∃ z : Fin 128 → ℝ, scaledK ((q / p : ℝ) : EReal) (fun d => (a d : EReal)) = (fun d => (z d : EReal)) ∧
      scaledR ((p / q : ℝ) : EReal) (fun d => (a d : EReal)) = (fun d => (z d : EReal)) := by
  obtain ⟨M, hM, hn⟩ := nrm_real a
  refine ⟨fun d => a d / M / (p / q), ?_, ?_⟩
  · funext d
    show (a d : EReal) * (Ideal.div one (nrm fun d => (a d : EReal)) * ((q / p : ℝ) : EReal))
      = ((a d / M / (p / q) : ℝ) : EReal)
    rw [hn, one_eq, Ideal.div_coe hM.ne', one_mul, ← EReal.coe_mul, ← EReal.coe_mul]
    congr 1
    field_simp
  · funext d
    show Ideal.div (Ideal.div (a d : EReal) (nrm fun d => (a d : EReal))) ((p / q : ℝ) : EReal)
      = ((a d / M / (p / q) : ℝ) : EReal)
    rw [hn, Cert.LibERealFinite.div_coe_coe _ hM.ne', Cert.LibERealFinite.div_coe_coe _ (div_ne_zero hp hq)]

/-! ## The shifted row and its exponentials -/

/-- The maximum of a row of real numbers is a real number. -/
theorem rowMax_real (z : Fin 128 → ℝ) : ∃ m : ℝ, rowMax (fun d => (z d : EReal)) = (m : EReal) :=
  (isRowMax_fold_max (fun d : Fin 128 => (z d : EReal))).real (fun _ => EReal.coe_ne_top _)
    ⟨0, EReal.coe_ne_bot _⟩

/-- A row of real numbers less its maximum, and the exponentials of that, are rows of real numbers. -/
theorem shift_real (z : Fin 128 → ℝ) :
    ∃ m : ℝ, (∀ d, shift (fun d => (z d : EReal)) d = ((z d - m : ℝ) : EReal)) ∧
      (∀ d, expShift (fun d => (z d : EReal)) d = ((Real.exp (z d - m) : ℝ) : EReal)) := by
  obtain ⟨m, hm⟩ := rowMax_real z
  refine ⟨m, fun d => ?_, fun d => ?_⟩
  · show (z d : EReal) - rowMax (fun d => (z d : EReal)) = _
    rw [hm, ← EReal.coe_sub]
  · show Ideal.exp ((z d : EReal) - rowMax (fun d => (z d : EReal))) = _
    rw [hm, ← EReal.coe_sub, Ideal.exp_coe]

/-! ## The two arrangements on scaled rows -/

/-- The identity between the two arrangements, in real numbers: L - ∑ e (1/T) sh = -∑ (e/T) (sh - L) when T = ∑ e
    is not zero. -/
theorem loss_identity (e sh : Fin 128 → ℝ) (L : ℝ) (hT : (∑ d : Fin 128, e d) ≠ 0) :
    L - ∑ d : Fin 128, e d * (1 / ∑ k : Fin 128, e k) * sh d
      = -∑ d : Fin 128, e d / (∑ k : Fin 128, e k) * (sh d - L) := by
  have h1 : ∑ d : Fin 128, e d / (∑ k : Fin 128, e k) = 1 := by
    rw [← Finset.sum_div]; exact div_self hT
  have h2 : ∑ d : Fin 128, e d / (∑ k : Fin 128, e k) * (sh d - L)
      = ∑ d : Fin 128, e d * (1 / ∑ k : Fin 128, e k) * sh d - L := by
    calc ∑ d : Fin 128, e d / (∑ k : Fin 128, e k) * (sh d - L)
        = ∑ d : Fin 128, (e d * (1 / ∑ k : Fin 128, e k) * sh d - e d / (∑ k : Fin 128, e k) * L) :=
          Finset.sum_congr rfl fun d _ => by ring
      _ = ∑ d : Fin 128, e d * (1 / ∑ k : Fin 128, e k) * sh d - L := by
          rw [Finset.sum_sub_distrib, ← Finset.sum_mul, h1, one_mul]
  rw [h2]; ring

/-- The two arrangements of the loss agree on a student row z and a teacher row w of real numbers. -/
theorem loss_rows_real (z w : Fin 128 → ℝ) :
    Ideal.log (∑ d : Fin 128, expShift (fun d => (z d : EReal)) d)
      - ∑ d : Fin 128, (expShift (fun d => (w d : EReal)) d
            * Ideal.div one (∑ e : Fin 128, expShift (fun d => (w d : EReal)) e))
          * shift (fun d => (z d : EReal)) d
    = - ∑ d : Fin 128, Ideal.div (expShift (fun d => (w d : EReal)) d)
            (∑ e : Fin 128, expShift (fun d => (w d : EReal)) e)
        * (shift (fun d => (z d : EReal)) d
            - Ideal.log (∑ e : Fin 128, expShift (fun d => (z d : EReal)) e)) := by
  obtain ⟨m, hsh, hex⟩ := shift_real z
  obtain ⟨m', -, hex'⟩ := shift_real w
  have hSpos : 0 < ∑ d : Fin 128, Real.exp (z d - m) :=
    Finset.sum_pos (fun d _ => Real.exp_pos _) Finset.univ_nonempty
  have hTpos : 0 < ∑ d : Fin 128, Real.exp (w d - m') :=
    Finset.sum_pos (fun d _ => Real.exp_pos _) Finset.univ_nonempty
  have hS : (∑ d : Fin 128, ((Real.exp (z d - m) : ℝ) : EReal))
      = ((∑ d : Fin 128, Real.exp (z d - m) : ℝ) : EReal) := (coe_sum _ _).symm
  have hT : (∑ d : Fin 128, ((Real.exp (w d - m') : ℝ) : EReal))
      = ((∑ d : Fin 128, Real.exp (w d - m') : ℝ) : EReal) := (coe_sum _ _).symm
  have hlog : Ideal.log ((∑ d : Fin 128, Real.exp (z d - m) : ℝ) : EReal)
      = ((Real.log (∑ d : Fin 128, Real.exp (z d - m)) : ℝ) : EReal) := by
    rw [Ideal.log_coe, if_neg (not_le.mpr hSpos)]
  have hrec : Ideal.div one ((∑ d : Fin 128, Real.exp (w d - m') : ℝ) : EReal)
      = ((1 / ∑ d : Fin 128, Real.exp (w d - m') : ℝ) : EReal) := by
    rw [one_eq, Ideal.div_coe hTpos.ne', one_mul]
  simp only [hsh, hex, hex', hS, hT, hlog, hrec, Cert.LibERealFinite.div_coe_coe _ hTpos.ne']
  simp only [← EReal.coe_mul, ← EReal.coe_sub, ← coe_sum, ← EReal.coe_neg]
  exact congrArg _ (loss_identity (fun d => Real.exp (w d - m')) (fun d => z d - m) _ hTpos.ne')

/-! ## The theorem on rows -/

/-- On rows of real numbers the two arrangements of the pixel loss agree. -/
theorem lossK_eq_lossR (x y : Fin 128 → EReal) (hx : ∀ d, ∃ r : ℝ, x d = (r : EReal))
    (hy : ∀ d, ∃ r : ℝ, y d = (r : EReal)) :
    lossK x y = lossR x y := by
  choose a ha using hx
  choose b hb using hy
  obtain rfl : x = fun d => (a d : EReal) := funext ha
  obtain rfl : y = fun d => (b d : EReal) := funext hb
  obtain ⟨z, hzK, hzR⟩ := scaled_real a (p := 13421773) (q := 134217728) (by norm_num) (by norm_num)
  obtain ⟨w, hwK, hwR⟩ := scaled_real b (p := 5368709) (q := 134217728) (by norm_num) (by norm_num)
  unfold lossK lossR
  rw [tauS_eq, tauT_eq]
  unfold invTauS invTauT
  rw [hzK, hzR, hwK, hwR]
  exact loss_rows_real z w

/-! ## Which pixels count -/

/-- The two spellings of "this pixel counts" agree for every image value and mask bit. -/
theorem vmK_eq_vmR (oxv : EReal) (mkb : BitVec 1) : vmK oxv mkb = vmR oxv mkb := by
  have h11 : (1 : EReal) - 1 = 0 := by
    rw [← EReal.coe_one, ← EReal.coe_sub, sub_self, EReal.coe_zero]
  unfold vmK vmKf vmR validBit
  rw [one_eq, zero_eq]
  by_cases h : oxv = 0
  · rcases BitVec.eq_zero_or_eq_one mkb with hm | hm <;> subst hm <;>
      simp [Ideal.cmp, Scalar.select, IntOp.andi, h]
  · rcases BitVec.eq_zero_or_eq_one mkb with hm | hm <;> subst hm <;>
      simp [Ideal.cmp, Scalar.select, IntOp.andi, h, h11]

end Cert.Dino

end
-- ==== Proof.LibFiniteAll.lean ====
/-
  A finiteness predicate read back at the ideal instance. A host predicate that tests a float array for finiteness computes
  the conjunction, over all its entries, of |x| < +∞ (an ordered less-than comparison of the absolute value against the
  splat of the +∞ word of f32), as a reduction by `and` from the constant 1 into a result of one index. At the ideal
  instance |x| is max x (-x) over the extended reals and the +∞ word denotes ⊤, so the bit being 1 says that every
  entry is a real number. Generic in the operand shape, the reduced axes, the scalar shape the constant is splat from
  and the initial value.
-/
import Idealize.ShloMosaic.Lib.StableHlo
import Idealize.ShloMosaic.Lib.ReduceAll
import Idealize.ShloMosaic.PureOps
import Idealize.ShloMosaic.PureOps.Ideal
import Idealize.ShloMosaic.PureOps.Ideal.Laws

noncomputable section

namespace Cert.LibFiniteAll

open Idealize.ShloMosaic

/-- The rank-0 shape has one index. -/
instance subsingleton_idx0 : Subsingleton (⟨0, ![]⟩ : Shape).Idx := ⟨fun a b => funext fun d => d.elim0⟩

/-- The conjunction of two `i1` vectors is 1 at an index exactly when both are. -/
theorem andi_apply_eq_one {s : Shape} (x y : IVec s 1) (i : s.Idx) :
    andi x y i = 1#1 ↔ x i = 1#1 ∧ y i = 1#1 := IntOp.andi_eq_one

/-- An extended real whose magnitude max x (-x) compares below the +∞ word of f32 is a real number. -/
theorem real_of_abs_olt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- The comparison |a| < splat(+∞) that is 1 at an entry: that entry is a real number. -/
theorem real_of_cmp_entry {s c : Shape} {dims : Fin c.rank → Fin s.rank} (hb : c.BroadcastsInDim s dims)
    (a : FVec Ideal s .f32) (i : s.Idx)
    (e : cmpf .olt (Host.absf a) (broadcastInDim s dims hb (constant (F := Ideal) c .f32 0x7F800000#32)) i = 1#1) :
    ∃ r : ℝ, a i = (r : EReal) :=
  real_of_abs_olt_inf (a i) e

/-- THE PREDICATE READ BACK, the comparison given as a vector `p` known entrywise: if the reduction by `and` of `p` into a
    result of one index is 1 and `p` is the comparison |a| < splat(+∞), every entry of `a` is a real number. -/
theorem real_of_all_of_eq {s t u c : Shape} {axes : List (Fin s.rank)} [Subsingleton t.Idx]
    {dims : Fin c.rank → Fin s.rank} (hb : c.BroadcastsInDim s dims)
    (a : FVec Ideal s .f32) (p : IVec s 1) (init : u.Idx → BitVec 1) (h : s.ReducesTo axes t) (hu : 0 < u.numel) (j : t.Idx)
    (hp : p = cmpf .olt (Host.absf a) (broadcastInDim s dims hb (constant (F := Ideal) c .f32 0x7F800000#32)))
    (e : Host.reduce IntOp.andi p init h hu j = 1#1) :
    ∀ i, ∃ r : ℝ, a i = (r : EReal) := by
  intro i
  have hi := Host.reduce_andi_all p init h hu j e i
  rw [hp] at hi
  exact real_of_cmp_entry hb a i hi

/-- THE PREDICATE READ BACK: if the reduction by `and`, into a result of one index, of |a| < splat(+∞) is 1, every entry
    of `a` is a real number. -/
theorem real_of_all {s t u c : Shape} {axes : List (Fin s.rank)} [Subsingleton t.Idx]
    {dims : Fin c.rank → Fin s.rank} (hb : c.BroadcastsInDim s dims)
    (a : FVec Ideal s .f32) (init : u.Idx → BitVec 1) (h : s.ReducesTo axes t) (hu : 0 < u.numel) (j : t.Idx)
    (e : Host.reduce IntOp.andi
          (cmpf .olt (Host.absf a) (broadcastInDim s dims hb (constant (F := Ideal) c .f32 0x7F800000#32))) init h hu j = 1#1) :
    ∀ i, ∃ r : ℝ, a i = (r : EReal) :=
  real_of_all_of_eq hb a _ init h hu j rfl e

end Cert.LibFiniteAll

end
-- ==== Proof.CountFinite.lean ====
/-
  Two facts the segment mean's comparison rests on.

  The counts. One arrangement sums the counting pixels as floats (each 0 or 1), the other sums the counting bits as 32-bit
  integers and reads the sum as a number. An image has 256·256 pixels and the whole array 8·256·256 = 524288 entries,
  each bit at most 1, so the integer sum stays far below 2^31: it does not wrap, its signed reading is its unsigned
  reading, and the two counts are one extended real.

  The inputs. The finiteness predicate is the conjunction, over the four float inputs, of "every entry has magnitude
  below +∞"; where it holds every entry of each is a real number.
-/
import proofs.«125939_j62036507623554_2_alg».proof.Proof.Spec
import proofs.«125939_j62036507623554_2_alg».proof.Pre_finite_inputs
import proofs.«125939_j62036507623554_2_alg».proof.Proof.LibFiniteAll
import Idealize.ShloMosaic.PureOps.Reduce
import Idealize.ShloMosaic.Lib.ReduceAll
import Idealize.ShloMosaic.PureOps.Ideal.Laws

noncomputable section

namespace Cert.Dino

open Idealize.ShloMosaic

/-! ## A 32-bit sum of bits -/

/-- The 32-bit sum of one-bit words over a finite set, read unsigned, is the sum of the bits modulo 2^32. -/
theorem toNat_fold_addi {ι : Type} [DecidableEq ι] (s : Finset ι) (f : ι → BitVec 1) :
    (s.fold IntOp.addi 0#32 (fun i => (f i).setWidth 32)).toNat = (∑ i ∈ s, (f i).toNat) % 2 ^ 32 := by
  induction s using Finset.induction_on with
  | empty => simp
  | insert a s ha ih =>
    rw [Finset.fold_insert ha, Finset.sum_insert ha]
    show ((f a).setWidth 32 + _).toNat = _
    rw [BitVec.toNat_add, ih, BitVec.toNat_setWidth]
    have h1 : (f a).toNat < 2 := (f a).isLt
    omega

/-- A sum of bits is at most the number of terms. -/
theorem sum_toNat_le_card {ι : Type} (s : Finset ι) (f : ι → BitVec 1) : ∑ i ∈ s, (f i).toNat ≤ s.card := by
  have h := Finset.sum_le_card_nsmul s (fun i => (f i).toNat) 1 (fun i _ => by have := (f i).isLt; omega)
  simpa using h

/-- The extended real of a finite sum of reals is the sum of the extended reals. -/
theorem coe_sum_real {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The array of pixels has 8·256·256 entries. -/
theorem card_SBHW : Fintype.card SBHW.Idx = 524288 := by
  rw [Shape.card_idx]; decide

/-- Over any set of pixels the 32-bit sum of the bits, read signed, is the sum of the bits. -/
theorem toInt_fold_addi (s : Finset SBHW.Idx) (f : SBHW.Idx → BitVec 1) :
    (s.fold IntOp.addi 0#32 (fun i => (f i).setWidth 32)).toInt = ((∑ i ∈ s, (f i).toNat : ℕ) : ℤ) := by
  have hle : ∑ i ∈ s, (f i).toNat ≤ 524288 :=
    (sum_toNat_le_card s f).trans ((Finset.card_le_univ s).trans card_SBHW.le)
  have hn := toNat_fold_addi s f
  rw [Nat.mod_eq_of_lt (by omega)] at hn
  rw [BitVec.toInt_eq_toNat_of_lt (by omega), hn]

/-! ## The two counts -/

/-- The float sum of the counting bits read as numbers is the integer sum of the bits read as a number:
    at most 8·256·256 ones are added, far below 2^31, so the 32-bit sum does not wrap. -/
theorem countsK_eq_countsR (h12 : SBHW.ReducesTo [1, 2] SB) (h0 : 0 < S0.numel) (h132 : 1 < 32) (v : SBHW.Idx → BitVec 1) :
    countsK h12 h0 (fun i => (((v i).toNat : ℝ) : EReal)) = countsR h12 h0 h132 v := by
  funext j
  have hR : countsR h12 h0 h132 v j
      = ((((Host.reduce IntOp.addi (extui 32 v h132) (constantI S0 32 0#32) h12 h0 j).toInt : ℝ)) : EReal) := rfl
  have hK : countsK h12 h0 (fun i => (((v i).toNat : ℝ) : EReal)) j
      = Ideal.hostReduceAdd h12 (fun i => (((v i).toNat : ℝ) : EReal)) (Ideal.ofBits .f32 0x00000000#32) j := rfl
  rw [hR, hK, Host.reduce_eq_fold]
  unfold Ideal.hostReduceAdd
  rw [Ideal.ofBits_zero_f32, zero_add]
  have hf := toInt_fold_addi (Finset.univ.filter fun i => h12.drop i = j) v
  show _ = (((((Finset.univ.filter fun i => h12.drop i = j).fold IntOp.addi 0#32 (fun i => (v i).setWidth 32)).toInt : ℝ)) : EReal)
  rw [hf, Int.cast_natCast, Nat.cast_sum, coe_sum_real]

/-! ## The inputs are real -/

/-- Under the finiteness precondition every entry of the four float inputs is a real number. -/
theorem real_of_pre [Cert.Pre_finite_inputs.Facts] (a0 a1 : FVec Ideal SBDHW .f32) (a2 : FVec Ideal SD .f32) (a3 : IVec SBHW 1)
    (a4 : FVec Ideal SB1HW .f32) (h : Cert.Pre_finite_inputs.fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal)) ∧ (∀ i, ∃ r : ℝ, a4 i = (r : EReal)) := by
  have h' := congrFun h (fun d => d.elim0)
  dsimp only [Cert.Pre_finite_inputs.fn, Cert.Pre_finite_inputs.fn_part1] at h'
  rw [LibFiniteAll.andi_apply_eq_one, LibFiniteAll.andi_apply_eq_one, LibFiniteAll.andi_apply_eq_one] at h'
  obtain ⟨⟨⟨e0, e1⟩, e2⟩, e4⟩ := h'
  exact ⟨LibFiniteAll.real_of_all _ a0 _ _ _ _ e0, LibFiniteAll.real_of_all _ a1 _ _ _ _ e1,
    LibFiniteAll.real_of_all _ a2 _ _ _ _ e2, LibFiniteAll.real_of_all _ a4 _ _ _ _ e4⟩

end Cert.Dino

end
-- ==== Proof.Bridge.lean ====
/-
  The two programs compute one number. The idealized kernel's run ends at the segment mean of the masked losses in
  the multiplied arrangement with the counts a float sum of counting factors; the reference's at the segment mean of
  the masked losses in the divided arrangement with the counts an integer sum of counting bits. On arrays of real
  numbers the two arrangements of the per-pixel loss agree, the two spellings of the counting factor agree for every
  value, and the float sum of at most 8·256·256 zeros and ones is the integer sum.
-/
import proofs.«125939_j62036507623554_2_alg».proof.Defs
import proofs.«125939_j62036507623554_2_alg».proof.Proof.Gen.Kernel.Frame
import proofs.«125939_j62036507623554_2_alg».proof.Proof.Gen.Pre_finite_inputs
import proofs.«125939_j62036507623554_2_alg».proof.Proof.KRun
import proofs.«125939_j62036507623554_2_alg».proof.Proof.KPayload
import proofs.«125939_j62036507623554_2_alg».proof.Proof.RefValue
import proofs.«125939_j62036507623554_2_alg».proof.Proof.RowMath
import proofs.«125939_j62036507623554_2_alg».proof.Proof.CountFinite

noncomputable section

open Idealize.ShloMosaic Idealize.ShloMosaic.TcCoe Idealize.SL.Sem Idealize.ShloMosaic.ValueIdx

namespace Cert.Proof.Bridge

open Cert.Dino

/-- On real arrays the masked loss arrays of the two arrangements are one array. -/
theorem masked_eq (s t : SBDHW.Idx → EReal) (c : SD.Idx → EReal) (mk : SBHW.Idx → BitVec 1) (ox : SB1HW.Idx → EReal)
    (hs : ∀ i, ∃ r : ℝ, s i = (r : EReal)) (ht : ∀ i, ∃ r : ℝ, t i = (r : EReal)) (hc : ∀ i, ∃ r : ℝ, c i = (r : EReal)) :
    maskedR s t c mk ox = maskedK s t c mk ox := by
  funext i
  have hx : ∀ d, ∃ r : ℝ, rowS s (i 0) (i 1) (i 2) d = (r : EReal) := fun d => hs _
  have hy : ∀ d, ∃ r : ℝ, rowT t c (i 0) (i 1) (i 2) d = (r : EReal) := fun d => by
    obtain ⟨a, ha⟩ := ht (ix4 (i 0) d (i 1) (i 2))
    obtain ⟨b, hb⟩ := hc (ix1 d)
    exact ⟨a - b, by show t _ - c _ = _; rw [ha, hb, EReal.coe_sub]⟩
  show lossR (rowS s (i 0) (i 1) (i 2)) (rowT t c (i 0) (i 1) (i 2)) * vmR (ox (ix4 (i 0) 0 (i 1) (i 2))) (mk i)
    = lossK (rowS s (i 0) (i 1) (i 2)) (rowT t c (i 0) (i 1) (i 2)) * vmK (ox (ix4 (i 0) 0 (i 1) (i 2))) (mk i)
  rw [vmK_eq_vmR, lossK_eq_lossR (rowS s (i 0) (i 1) (i 2)) (rowT t c (i 0) (i 1) (i 2)) hx hy]

/-- The counting factors are the counting bits read as numbers. -/
theorem vmArrK_eq (mk : SBHW.Idx → BitVec 1) (ox : SB1HW.Idx → EReal) :
    vmArrK mk ox = fun i => (((validArr mk ox i).toNat : ℝ) : EReal) := by
  funext i
  unfold vmArrK
  rw [vmK_eq_vmR]
  rfl

/-- The float count of the counting factors is the integer count of the counting bits. -/
theorem counts_eq (h12 : SBHW.ReducesTo [1, 2] SB) (h0 : 0 < S0.numel) (h132 : 1 < 32) (mk : SBHW.Idx → BitVec 1) (ox : SB1HW.Idx → EReal) :
    countsR h12 h0 h132 (validArr mk ox) = countsK h12 h0 (vmArrK mk ox) := by
  rw [vmArrK_eq, countsK_eq_countsR h12 h0 h132]

end Cert.Proof.Bridge

namespace Cert.Proof.Claims

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

/-- The two named constants are the values the table gives them: the exact reciprocals of the two f32 temperatures. -/
theorem preserves : Cert.preserves_Kernel_KernelIdeal :=
  ⟨IdealRules.named_const.statement Cert.KernelIdeal.κ "inv_tau_s" .f32 0x41200000#32 ((134217728 / 13421773 : ℝ) : EReal) rfl,
   IdealRules.named_const.statement Cert.KernelIdeal.κ "inv_tau_t" .f32 0x41C80000#32 ((134217728 / 5368709 : ℝ) : EReal) rfl⟩

theorem algebraic : Cert.algebraic_KernelIdeal_ReferenceIdeal := by
  intro m ρ m' ρ' hpre hagree
  refine ⟨_, Cert.KernelIdeal.KRun.run m ρ Cert.KernelIdeal.KPayload.pay2_apply Cert.KernelIdeal.KPayload.pay3_apply, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v64_eq, Cert.ReferenceIdeal.RefValue.result_eq]
  obtain ⟨a0, a1, a2, a3, a4⟩ := hagree c
  rw [a0, a1, a2, a3, a4]
  obtain ⟨r0, r1, r2, r4⟩ := Cert.Dino.real_of_pre _ _ _ _ _ (hpre c)
  rw [Cert.Proof.Bridge.masked_eq _ _ _ _ _ r0 r1 r2, Cert.Proof.Bridge.counts_eq]

end Cert.Proof.Claims

end
-- ==== Proof.LibHostMaxReduce.lean ====
/-
  The host's reduction by maximum over one axis, read at the ideal instance. There the maximum of two floats is the
  maximum of two extended reals, commutative and associative, so a one-operand reduce whose body is a maximum is, at
  each result index, the fold of `max` from the initial value over the coordinates of the reduced axis, in any order.
  First for any shapes and any single axis, the source index named by the library's insertion of a coordinate into
  the result index; then for an array of rank four reduced over its last axis, the indices by their coordinates.
-/
import Idealize.ShloMosaic.PureOps
import Idealize.ShloMosaic.PureOps.Ideal
import Idealize.ShloMosaic.PureOps.Ideal.Laws
import Idealize.ShloMosaic.PureOps.Reduce
import Idealize.ShloMosaic.Lib.ValueIdx

noncomputable section

namespace Cert.LibHostMaxReduce

open Idealize.ShloMosaic Idealize.ShloMosaic.ValueIdx

/-- A reduce by maximum over the one axis `a`, at result index `j`: the fold of `max`, from the initial value's element,
    of the operand over the coordinates `k` of axis `a`, at `j` with `k` inserted on that axis. -/
theorem hostReduce_maximumf_single {s t u : Shape} {a : Fin s.rank} {φ : FTy} (x : s.Idx → EReal) (init : u.Idx → EReal)
    (h' : s.ReducesTo [a] t) (h : s.Reduces [a] t) (hu : 0 < u.numel) (j : t.Idx) :
    Host.reduce (FloatOps.maximumf (F := Ideal) (φ := φ)) x init h' hu j
      = (Finset.univ : Finset (Fin (s.size a))).fold max (init (Shape.Idx.first hu)) (fun k => x (h.lift j k)) :=
  Host.reduce_eq_fold_single (FloatOps.maximumf (F := Ideal) (φ := φ)) x init h' h hu j

/-- A reduce by maximum of a rank-four array over its last axis, at (a, b, c): the fold of `max`, from the initial
    value's element, of the entries at (a, b, c, k) over k. -/
theorem hostReduce_maximumf_last4 {n0 n1 n2 n3 : Nat} {u : Shape} {φ : FTy}
    (x : (⟨4, ![n0, n1, n2, n3]⟩ : Shape).Idx → EReal) (init : u.Idx → EReal)
    (h' : (⟨4, ![n0, n1, n2, n3]⟩ : Shape).ReducesTo [3] ⟨3, ![n0, n1, n2]⟩) (hu : 0 < u.numel)
    (a : Fin n0) (b : Fin n1) (c : Fin n2) :
    Host.reduce (FloatOps.maximumf (F := Ideal) (φ := φ)) x init h' hu (ix3 a b c)
      = (Finset.univ : Finset (Fin n3)).fold max (init (Shape.Idx.first hu)) (fun k => x (ix4 a b c k)) := by
  have h : (⟨4, ![n0, n1, n2, n3]⟩ : Shape).Reduces [3] ⟨3, ![n0, n1, n2]⟩ := ⟨h'.1, Nat.succ_pos 2, h'.2⟩
  refine (hostReduce_maximumf_single x init h' h hu (ix3 a b c)).trans ?_
  show (Finset.univ : Finset (Fin n3)).fold max _ _ = _
  refine congrArg (fun f => (Finset.univ : Finset (Fin n3)).fold max (init (Shape.Idx.first hu)) f) ?_
  funext k
  exact congrArg x (funext fun e => Fin.ext (by
    match e with
    | ⟨0, _⟩ => rfl
    | ⟨1, _⟩ => rfl
    | ⟨2, _⟩ => rfl
    | ⟨3, _⟩ => rfl))

/-- The word of minus infinity denotes the bottom of the extended reals. -/
theorem ofBits_neg_inf_f32 : Ideal.ofBits .f32 0xFF800000#32 = ⊥ := by simp [Ideal.ofBits, Ideal.ieee]

end Cert.LibHostMaxReduce

end
-- ==== Proof.lean ====
/- The pixel-wise self-distillation loss: a fused kernel against its array reference, as extended reals.

   Per pixel both programs L2-normalise the 128 student channels and the 128 centred teacher channels (the length
   clamped below by epsilon), divide by a temperature, turn the teacher row into probabilities p by a softmax and the
   student row into log-probabilities by a log-softmax, and take -∑ p · log q; the losses of the counting pixels
   (image value not zero, mask bit clear) are averaged per image and then over the images that have a counting pixel.
   The kernel multiplies by reciprocals, among them the two named constants, the exact reciprocals of the reference's
   two f32 temperatures, and keeps the log-sum-exp apart; on real inputs that is the same number (Proof/RowMath.lean),
   and its float count of the counting pixels is the reference's integer count (Proof/CountFinite.lean). What the
   kernel's region and host lines leave is read in Proof/KPayload.lean, KArray.lean, KTail.lean and KRun.lean, what
   the reference computes in Proof/RefValue.lean; Proof/Bridge.lean joins the two and states the five claims. -/
import proofs.«125939_j62036507623554_2_alg».proof.Defs
import proofs.«125939_j62036507623554_2_alg».proof.Proof.Gen.Kernel
import proofs.«125939_j62036507623554_2_alg».proof.Proof.Gen.Kernel.Skeleton
import proofs.«125939_j62036507623554_2_alg».proof.Proof.Gen.Kernel.Launch
import proofs.«125939_j62036507623554_2_alg».proof.Proof.Gen.Kernel.Points
import proofs.«125939_j62036507623554_2_alg».proof.Proof.Gen.Kernel.Frame
import proofs.«125939_j62036507623554_2_alg».proof.Proof.Gen.KernelIdeal
import proofs.«125939_j62036507623554_2_alg».proof.Proof.Gen.KernelIdeal.Skeleton
import proofs.«125939_j62036507623554_2_alg».proof.Proof.Gen.KernelIdeal.Launch
import proofs.«125939_j62036507623554_2_alg».proof.Proof.Gen.KernelIdeal.Points
import proofs.«125939_j62036507623554_2_alg».proof.Proof.Gen.KernelIdeal.Frame
import proofs.«125939_j62036507623554_2_alg».proof.Proof.Gen.ReferenceIdeal
import proofs.«125939_j62036507623554_2_alg».proof.Proof.Gen.Pre_finite_inputs
import proofs.«125939_j62036507623554_2_alg».proof.Proof.Bridge
import proofs.«125939_j62036507623554_2_alg».proof.Proof.LibHostMaxReduce
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Proof.Claims.frame_k, Cert.Proof.Claims.frame_ki, Cert.Proof.Claims.frame_ri, Cert.Proof.Claims.preserves,
  Cert.Proof.Claims.algebraic⟩

end Cert.Proof

end
